-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2x32x32x256 : Shape := ⟨5, ![8, 2, 32, 32, 256]⟩
abbrev S2000x256 : Shape := ⟨2, ![2000, 256]⟩
abbrev S_ : Shape := ⟨0, ![]⟩

class Facts : Prop where
  bcast_S_S8x2x32x32x256 : S_.BroadcastsInDim S8x2x32x32x256 (![] : Fin 0 → Fin S8x2x32x32x256.rank)
  reducesTo_S8x2x32x32x256_S_d0_1_2_3_4 : S8x2x32x32x256.ReducesTo [0, 1, 2, 3, 4] S_
  h_S_ : 0 < S_.numel
  bcast_S_S2000x256 : S_.BroadcastsInDim S2000x256 (![] : Fin 0 → Fin S2000x256.rank)
  reducesTo_S2000x256_S_d0_1 : S2000x256.ReducesTo [0, 1] S_

variable [Facts]

def fn {F : FTy → Type} [FloatOps F] (main_arg0 : FVec F S8x2x32x32x256 .f32) (main_arg1 : FVec F S2000x256 .f32) : IVec S_ 1 :=
  let main_v0 : FVec F S8x2x32x32x256 .f32 := Host.absf main_arg0
  let main_cst : FVec F S_ .f32 := constant S_ .f32 0x7F800000#32
  let main_v1 : FVec F S8x2x32x32x256 .f32 := broadcastInDim S8x2x32x32x256 ![] bcast_S_S8x2x32x32x256 main_cst
  let main_v2 : IVec S8x2x32x32x256 1 := cmpf .olt main_v0 main_v1
  let main_c : IVec S_ 1 := constantI S_ 1 1#1
  let main_v3 : IVec S_ 1 := (fun x v => Host.reduce IntOp.andi x v reducesTo_S8x2x32x32x256_S_d0_1_2_3_4 h_S_) main_v2 main_c
  let main_v4 : FVec F S2000x256 .f32 := Host.absf main_arg1
  let main_cst_0 : FVec F S_ .f32 := constant S_ .f32 0x7F800000#32
  let main_v5 : FVec F S2000x256 .f32 := broadcastInDim S2000x256 ![] bcast_S_S2000x256 main_cst_0
  let main_v6 : IVec S2000x256 1 := cmpf .olt main_v4 main_v5
  let main_c_1 : IVec S_ 1 := constantI S_ 1 1#1
  let main_v7 : IVec S_ 1 := (fun x v => Host.reduce IntOp.andi x v reducesTo_S2000x256_S_d0_1 h_S_) main_v6 main_c_1
  let main_v8 : IVec S_ 1 := andi main_v3 main_v7
  main_v8
-- ==== Kernel.lean ====
abbrev S8x2x32x32x256 : Shape := ⟨5, ![8, 2, 32, 32, 256]⟩
abbrev S2000x256 : Shape := ⟨2, ![2000, 256]⟩
abbrev S16384x256 : Shape := ⟨2, ![16384, 256]⟩
abbrev S_ : Shape := ⟨0, ![]⟩
abbrev S2000 : Shape := ⟨1, ![2000]⟩
abbrev S1x2000 : Shape := ⟨2, ![1, 2000]⟩
abbrev S16384x2000 : Shape := ⟨2, ![16384, 2000]⟩
abbrev S512x256 : Shape := ⟨2, ![512, 256]⟩
abbrev S512x2000 : Shape := ⟨2, ![512, 2000]⟩
abbrev S512 : Shape := ⟨1, ![512]⟩
abbrev S512x1 : Shape := ⟨2, ![512, 1]⟩
abbrev S8x2x32x32x2000 : Shape := ⟨5, ![8, 2, 32, 32, 2000]⟩

abbrev nBuf : Space → Nat
  | .hbm => 12
  | .vmem => 8
  | .smem => 0
  | _ => 0

abbrev bufTy : (tb : Table) → Fin (tcTables nBuf tb) → BufTy
  | .hbm, ⟨0, _⟩ => ⟨S8x2x32x32x256, .f32⟩
  | .hbm, ⟨1, _⟩ => ⟨S2000x256, .f32⟩
  | .hbm, ⟨2, _⟩ => ⟨S16384x256, .f32⟩
  | .hbm, ⟨3, _⟩ => ⟨S2000x256, .f32⟩
  | .hbm, ⟨4, _⟩ => ⟨S_, .f32⟩
  | .hbm, ⟨5, _⟩ => ⟨S2000, .f32⟩
  | .hbm, ⟨6, _⟩ => ⟨S2000, .f32⟩
  | .hbm, ⟨7, _⟩ => ⟨S1x2000, .f32⟩
  | .hbm, ⟨8, _⟩ => ⟨S16384x2000, .f32⟩
  | .hbm, ⟨9, _⟩ => ⟨S16384x256, .f32⟩
  | .hbm, ⟨10, _⟩ => ⟨S8x2x32x32x256, .f32⟩
  | .hbm, ⟨11, _⟩ => ⟨S8x2x32x32x2000, .f32⟩
  | .local _ .vmem, ⟨0, _⟩ => ⟨S512x256, .f32⟩
  | .local _ .vmem, ⟨1, _⟩ => ⟨S512x256, .f32⟩
  | .local _ .vmem, ⟨2, _⟩ => ⟨S2000x256, .f32⟩
  | .local _ .vmem, ⟨3, _⟩ => ⟨S1x2000, .f32⟩
  | .local _ .vmem, ⟨4, _⟩ => ⟨S512x2000, .f32⟩
  | .local _ .vmem, ⟨5, _⟩ => ⟨S512x2000, .f32⟩
  | .local _ .vmem, ⟨6, _⟩ => ⟨S512x256, .f32⟩
  | .local _ .vmem, ⟨7, _⟩ => ⟨S512x256, .f32⟩
  | _, _ => ⟨S8x2x32x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2000x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x2x32x32x256_S16384x256 : S8x2x32x32x256.ShapeCasts S16384x256
  reducesTo_S2000x256_S2000_d1 : S2000x256.ReducesTo [1] S2000
  h_S_ : 0 < S_.numel
  shapeCasts_S2000_S1x2000 : S2000.ShapeCasts S1x2000
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2000x256_S2000x256_0_0 : ∀ a, (![0, 0] : Fin 2 → Nat) a + S2000x256.size a ≤ S2000x256.size a
  h_S2000x256 : 0 < S2000x256.numel
  inb_S1x2000_S1x2000_0_0 : ∀ a, (![0, 0] : Fin 2 → Nat) a + S1x2000.size a ≤ S1x2000.size a
  h_S1x2000 : 0 < S1x2000.numel
  shapeCasts_S1x2000_S1x2000 : S1x2000.ShapeCasts S1x2000
  bitsLt_bf16_f32 : FTy.bits .bf16 < FTy.bits .f32
  reduces_S512x256_S512 : S512x256.Reduces [1] S512
  shapeCasts_S512_S512x1 : S512.ShapeCasts S512x1
  broadcasts_S512x1_S512x2000 : S512x1.Broadcasts S512x2000
  broadcasts_S1x2000_S512x2000 : S1x2000.Broadcasts S512x2000
  reduces_S512x2000_S512 : S512x2000.Reduces [1] S512
  inb_S512x2000_S512x2000_0_0 : ∀ a, (![0, 0] : Fin 2 → Nat) a + S512x2000.size a ≤ S512x2000.size a
  h_S512x2000 : 0 < S512x2000.numel
  shapeCasts_S16384x256_S8x2x32x32x256 : S16384x256.ShapeCasts S8x2x32x32x256
  shapeCasts_S16384x2000_S8x2x32x32x2000 : S16384x2000.ShapeCasts S8x2x32x32x2000
  dot_S512x256_S2000x256_S512x2000_1_1_0_0_n_n_wf : DotDims.WF S512x256 S2000x256 S512x2000 [1] [1] [0] [0] [] []
  dot_S512x2000_S2000x256_S512x256_1_0_0_1_n_n_wf : DotDims.WF S512x2000 S2000x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S16384x256.size a
  hwx0_0 : ∀ i : grid0.Coords, EltTy.bits .f32 = 32 ∨ (Rect.block (s := S16384x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S2000x256.size a
  hwx0_1 : ∀ i : grid0.Coords, EltTy.bits .f32 = 32 ∨ (Rect.block (s := S2000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2000.size a ≤ S1x2000.size a
  hwx0_2 : ∀ i : grid0.Coords, EltTy.bits .f32 = 32 ∨ (Rect.block (s := S1x2000) S1x2000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2000.size a ≤ S16384x2000.size a
  hwx0_3 : ∀ i : grid0.Coords, EltTy.bits .f32 = 32 ∨ (Rect.block (s := S16384x2000) S512x2000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S16384x256.size a
  hwx0_4 : ∀ i : grid0.Coords, EltTy.bits .f32 = 32 ∨ (Rect.block (s := S16384x256) S512x256.size (cc0_transform_4 i) (hinb0_4 i)).WholeWords (EltTy.packing .f32)

variable [Facts₀]

def dot_S512x256_S2000x256_S512x2000_1_1_0_0_n_n : DotDims S512x256 S2000x256 S512x2000 where
  lhsContracting := [1]
  rhsContracting := [1]
  lhsNonContracting := [0]
  rhsNonContracting := [0]
  lhsBatch := []
  rhsBatch := []
  wf := dot_S512x256_S2000x256_S512x2000_1_1_0_0_n_n_wf
def dot_S512x2000_S2000x256_S512x256_1_0_0_1_n_n : DotDims S512x2000 S2000x256 S512x256 where
  lhsContracting := [1]
  rhsContracting := [0]
  lhsNonContracting := [0]
  rhsNonContracting := [1]
  lhsBatch := []
  rhsBatch := []
  wf := dot_S512x2000_S2000x256_S512x256_1_0_0_1_n_n_wf

abbrev win0_0 : Pipeline.Window sig grid0 :=
  Pipeline.Window.ofSpec (Memref.whole main_v0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S512x2000.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2x32x32x256 : Shape := ⟨5, ![8, 2, 32, 32, 256]⟩
abbrev S2000x256 : Shape := ⟨2, ![2000, 256]⟩
abbrev S_ : Shape := ⟨0, ![]⟩
abbrev S8x2x32x32 : Shape := ⟨4, ![8, 2, 32, 32]⟩
abbrev S8x2x32x32x1 : Shape := ⟨5, ![8, 2, 32, 32, 1]⟩
abbrev S2000 : Shape := ⟨1, ![2000]⟩
abbrev S8x2x32x32x2000 : Shape := ⟨5, ![8, 2, 32, 32, 2000]⟩
abbrev S1x1x1x1x2000 : Shape := ⟨5, ![1, 1, 1, 1, 2000]⟩

abbrev nBuf : Space → Nat
  | .hbm => 56
  | .vmem => 0
  | .smem => 0
  | _ => 0

abbrev bufTy : (tb : Table) → Fin (tcTables nBuf tb) → BufTy
  | .hbm, ⟨0, _⟩ => ⟨S8x2x32x32x256, .f32⟩
  | .hbm, ⟨1, _⟩ => ⟨S2000x256, .f32⟩
  | .hbm, ⟨2, _⟩ => ⟨S8x2x32x32x256, .f32⟩
  | .hbm, ⟨3, _⟩ => ⟨S_, .f32⟩
  | .hbm, ⟨4, _⟩ => ⟨S8x2x32x32, .f32⟩
  | .hbm, ⟨5, _⟩ => ⟨S8x2x32x32x1, .f32⟩
  | .hbm, ⟨6, _⟩ => ⟨S8x2x32x32x1, .f32⟩
  | .hbm, ⟨7, _⟩ => ⟨S2000x256, .f32⟩
  | .hbm, ⟨8, _⟩ => ⟨S_, .f32⟩
  | .hbm, ⟨9, _⟩ => ⟨S2000, .f32⟩
  | .hbm, ⟨10, _⟩ => ⟨S2000, .f32⟩
  | .hbm, ⟨11, _⟩ => ⟨S8x2x32x32x2000, .f32⟩
  | .hbm, ⟨12, _⟩ => ⟨S1x1x1x1x2000, .f32⟩
  | .hbm, ⟨13, _⟩ => ⟨S8x2x32x32x2000, .f32⟩
  | .hbm, ⟨14, _⟩ => ⟨S8x2x32x32x2000, .f32⟩
  | .hbm, ⟨15, _⟩ => ⟨S8x2x32x32x2000, .f32⟩
  | .hbm, ⟨16, _⟩ => ⟨S_, .f32⟩
  | .hbm, ⟨17, _⟩ => ⟨S8x2x32x32x2000, .f32⟩
  | .hbm, ⟨18, _⟩ => ⟨S8x2x32x32x2000, .f32⟩
  | .hbm, ⟨19, _⟩ => ⟨S8x2x32x32x2000, .f32⟩
  | .hbm, ⟨20, _⟩ => ⟨S_, .f32⟩
  | .hbm, ⟨21, _⟩ => ⟨S8x2x32x32, .f32⟩
  | .hbm, ⟨22, _⟩ => ⟨S_, .f32⟩
  | .hbm, ⟨23, _⟩ => ⟨S8x2x32x32, .f32⟩
  | .hbm, ⟨24, _⟩ => ⟨S8x2x32x32, .f32⟩
  | .hbm, ⟨25, _⟩ => ⟨S8x2x32x32x1, .f32⟩
  | .hbm, ⟨26, _⟩ => ⟨S8x2x32x32x2000, .f32⟩
  | .hbm, ⟨27, _⟩ => ⟨S8x2x32x32x2000, .f32⟩
  | .hbm, ⟨28, _⟩ => ⟨S8x2x32x32x2000, .f32⟩
  | .hbm, ⟨29, _⟩ => ⟨S_, .f32⟩
  | .hbm, ⟨30, _⟩ => ⟨S8x2x32x32, .f32⟩
  | .hbm, ⟨31, _⟩ => ⟨S8x2x32x32x1, .f32⟩
  | .hbm, ⟨32, _⟩ => ⟨S8x2x32x32x2000, .f32⟩
  | .hbm, ⟨33, _⟩ => ⟨S8x2x32x32x2000, .f32⟩
  | .hbm, ⟨34, _⟩ => ⟨S_, .f32⟩
  | .hbm, ⟨35, _⟩ => ⟨S8x2x32x32x2000, .f32⟩
  | .hbm, ⟨36, _⟩ => ⟨S8x2x32x32x2000, .f32⟩
  | .hbm, ⟨37, _⟩ => ⟨S_, .f32⟩
  | .hbm, ⟨38, _⟩ => ⟨S8x2x32x32x2000, .f32⟩
  | .hbm, ⟨39, _⟩ => ⟨S8x2x32x32x2000, .f32⟩
  | .hbm, ⟨40, _⟩ => ⟨S8x2x32x32x2000, .f32⟩
  | .hbm, ⟨41, _⟩ => ⟨S_, .f32⟩
  | .hbm, ⟨42, _⟩ => ⟨S8x2x32x32x2000, .f32⟩
  | .hbm, ⟨43, _⟩ => ⟨S8x2x32x32x2000, .f32⟩
  | .hbm, ⟨44, _⟩ => ⟨S8x2x32x32x2000, .f32⟩
  | .hbm, ⟨45, _⟩ => ⟨S8x2x32x32x2000, .f32⟩
  | .hbm, ⟨46, _⟩ => ⟨S8x2x32x32x2000, .f32⟩
  | .hbm, ⟨47, _⟩ => ⟨S_, .f32⟩
  | .hbm, ⟨48, _⟩ => ⟨S8x2x32x32, .f32⟩
  | .hbm, ⟨49, _⟩ => ⟨S8x2x32x32x1, .f32⟩
  | .hbm, ⟨50, _⟩ => ⟨S_, .f32⟩
  | .hbm, ⟨51, _⟩ => ⟨S8x2x32x32x1, .f32⟩
  | .hbm, ⟨52, _⟩ => ⟨S8x2x32x32x1, .f32⟩
  | .hbm, ⟨53, _⟩ => ⟨S8x2x32x32x2000, .f32⟩
  | .hbm, ⟨54, _⟩ => ⟨S8x2x32x32x2000, .f32⟩
  | .hbm, ⟨55, _⟩ => ⟨S8x2x32x32x256, .f32⟩
  | _, _ => ⟨S8x2x32x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_call1_v0 : Ref sig .tc := ⟨.hbm, 7, rfl⟩
abbrev main_call1_cst : Ref sig .tc := ⟨.hbm, 8, rfl⟩
abbrev main_call1_v1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_call2_cst : Ref sig .tc := ⟨.hbm, 37, rfl⟩
abbrev main_call2_v0 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩

abbrev nD : Nat := 1
abbrev τ : Topo := Topo.v7x

variable {F : FTy → Type} [FloatOps F]

class Facts₀ : Prop where
  reducesTo_S8x2x32x32x256_S8x2x32x32_d4 : S8x2x32x32x256.ReducesTo [4] S8x2x32x32
  h_S_ : 0 < S_.numel
  bcast_S8x2x32x32_S8x2x32x32x1_0_1_2_3 : S8x2x32x32.BroadcastsInDim S8x2x32x32x1 (![0, 1, 2, 3] : Fin 4 → Fin S8x2x32x32x1.rank)
  reducesTo_S2000x256_S2000_d1 : S2000x256.ReducesTo [1] S2000
  bcast_S2000_S1x1x1x1x2000_4 : S2000.BroadcastsInDim S1x1x1x1x2000 (![4] : Fin 1 → Fin S1x1x1x1x2000.rank)
  bcast_S8x2x32x32x1_S8x2x32x32x2000_0_1_2_3_4 : S8x2x32x32x1.BroadcastsInDim S8x2x32x32x2000 (![0, 1, 2, 3, 4] : Fin 5 → Fin S8x2x32x32x2000.rank)
  bcast_S1x1x1x1x2000_S8x2x32x32x2000_0_1_2_3_4 : S1x1x1x1x2000.BroadcastsInDim S8x2x32x32x2000 (![0, 1, 2, 3, 4] : Fin 5 → Fin S8x2x32x32x2000.rank)
  bcast_S_S8x2x32x32x2000 : S_.BroadcastsInDim S8x2x32x32x2000 (![] : Fin 0 → Fin S8x2x32x32x2000.rank)
  reducesTo_S8x2x32x32x2000_S8x2x32x32_d4 : S8x2x32x32x2000.ReducesTo [4] S8x2x32x32
  bcast_S_S8x2x32x32 : S_.BroadcastsInDim S8x2x32x32 (![] : Fin 0 → Fin S8x2x32x32.rank)
  bcast_S_S8x2x32x32x1 : S_.BroadcastsInDim S8x2x32x32x1 (![] : Fin 0 → Fin S8x2x32x32x1.rank)
  dot_S8x2x32x32x256_S2000x256_S8x2x32x32x2000_4_1_0123_0_n_n_wf : DotDims.WF S8x2x32x32x256 S2000x256 S8x2x32x32x2000 [4] [1] [0, 1, 2, 3] [0] [] []
  dot_S8x2x32x32x2000_S2000x256_S8x2x32x32x256_4_0_0123_1_n_n_wf : DotDims.WF S8x2x32x32x2000 S2000x256 S8x2x32x32x256 [4] [0] [0, 1, 2, 3] [1] [] []

variable [Facts₀]

def dot_S8x2x32x32x256_S2000x256_S8x2x32x32x2000_4_1_0123_0_n_n : DotDims S8x2x32x32x256 S2000x256 S8x2x32x32x2000 where
  lhsContracting := [4]
  rhsContracting := [1]
  lhsNonContracting := [0, 1, 2, 3]
  rhsNonContracting := [0]
  lhsBatch := []
  rhsBatch := []
  wf := dot_S8x2x32x32x256_S2000x256_S8x2x32x32x2000_4_1_0123_0_n_n_wf
def dot_S8x2x32x32x2000_S2000x256_S8x2x32x32x256_4_0_0123_1_n_n : DotDims S8x2x32x32x2000 S2000x256 S8x2x32x32x256 where
  lhsContracting := [4]
  rhsContracting := [0]
  lhsNonContracting := [0, 1, 2, 3]
  rhsNonContracting := [1]
  lhsBatch := []
  rhsBatch := []
  wf := dot_S8x2x32x32x2000_S2000x256_S8x2x32x32x256_4_0_0123_1_n_n_wf

class Facts : Prop extends Facts₀ where

variable [Facts]
-- ==== Proof.LibRowOps.lean ====
/-
  Dense two-axis arrays on the extended reals, read at coordinates.

  * keepdims layout: a length-`a` vector as an `[a, 1]` column, and an `[a, 1]` column repeated across `b` columns;
  * a row sum and a row maximum of an `[a, b]` array, kept as a length-`a` vector: the `Fin b`-indexed sum of the row,
    and the fold of `max` over the row from the accumulator's value (the host's reduce over the last axis of a
    rank-3 array likewise);
  * the two products of two-axis arrays a dense layer meets, into a zero accumulator: both operands contracted on
    their SECOND axis, `out (i, j) = Σ k, A (i, k) · B (j, k)`, and both on their FIRST, `out (i, j) = Σ k, A (k, i) · B (k, j)`.
    The dimension numbers enter through four coordinate facts of their index maps, so one statement serves every
    extent;
  * `max b (fold max b f) = fold max b f`: a maximum taken once more with its own starting value.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.RowOps

open Idealize.ShloMosaic Idealize.ShloMosaic.ValueIdx

/-! ## Keepdims layout -/

section Layout
variable {α : Type}

/-- A length-`a` vector cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated across `b` columns reads, at `(i, j)`, the column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-! ## A row's sum and a row's maximum -/

/-- The reduced index `i` with the coordinate `k` of the second axis put back is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A sum over the second axis of an `[a, b]` array reads, at `i`, the sum of row `i`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_row h i k))

/-- A maximum over the second axis of an `[a, b]` array reads, at `i`, the fold of `max` over row `i` from the
    accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg (fun f => Finset.fold max (Ideal.ofBits φ acc) f (Finset.univ : Finset (Fin b)))
      (funext fun k => congrArg src (lift_row h i k)))

/-- The reduced index `(a, b)` of a three-axis array with the coordinate `k` of the last axis put back is `(a, b, k)`. -/
theorem lift_last3 {n0 n1 n2 : ℕ} (h : (⟨3, ![n0, n1, n2]⟩ : Shape).Reduces [2] (⟨2, ![n0, n1]⟩ : Shape)) (a : Fin n0) (b : Fin n1)
    (k : Fin ((⟨3, ![n0, n1, n2]⟩ : Shape).size 2)) : h.lift (ix2 a b) k = ix3 a b (⟨k.val, k.isLt⟩ : Fin n2) := by
  funext c; apply Fin.ext
  fin_cases c <;> rfl

/-- The host's reduce with a maximum body over the last axis of a three-axis array reads, at `(a, b)`, the fold of
    `max` over that row from the initial value. -/
theorem hostRowMax3_apply {n0 n1 n2 : ℕ} {u : Shape} (x : FVec Ideal ⟨3, ![n0, n1, n2]⟩ .f32) (init : u.Idx → Ideal .f32)
    (h' : (⟨3, ![n0, n1, n2]⟩ : Shape).ReducesTo [2] ⟨2, ![n0, n1]⟩) (h : (⟨3, ![n0, n1, n2]⟩ : Shape).Reduces [2] ⟨2, ![n0, n1]⟩)
    (hu : 0 < u.numel) (a : Fin n0) (b : Fin n1) :
    Host.reduce FloatOps.maximumf x init h' hu (ix2 a b)
      = (Finset.univ : Finset (Fin n2)).fold max (init (Shape.Idx.first hu)) (fun k => x (ix3 a b k)) :=
  (Host.reduce_eq_fold_single FloatOps.maximumf x init h' h hu (ix2 a b)).trans
    (congrArg (fun f => Finset.fold max (init (Shape.Idx.first hu)) f (Finset.univ : Finset (Fin n2)))
      (funext fun k => congrArg x (lift_last3 h a b k)))

/-- A maximum taken once more with its own starting value is unchanged. -/
theorem max_fold_max {ι : Type} (s : Finset ι) (b : EReal) (f : ι → EReal) :
    max b (s.fold max b f) = s.fold max b f :=
  max_eq_right ((Finset.le_fold_max b).mpr (Or.inl le_rfl))

/-! ## The products of two-axis arrays -/

/-- Both operands contracted on their SECOND axis, into a zero accumulator: `out (i, j) = Σ k, A (i, k) · B (j, k)`. -/
theorem matmul_nt_apply {M K N : ℕ} {φ₁ φ₂ : FTy} (d : DotDims ⟨2, ![M, K]⟩ ⟨2, ![N, K]⟩ ⟨2, ![M, N]⟩)
    (prec : Option ContractPrecision) (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (j 1).val) (hr1 : ∀ j q, (d.rhsIdx j q 1).val = (q ⟨0, by omega⟩).val)
    (A : FVec Ideal ⟨2, ![M, K]⟩ φ₁) (B : FVec Ideal ⟨2, ![N, K]⟩ φ₂) (i : Fin M) (j : Fin N) :
    matmul d prec A B (constant ⟨2, ![M, N]⟩ .f32 0x00000000#32) (ix2 i j) = ∑ k : Fin K, A (ix2 i k) * B (ix2 j k) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact hl0 _ _
    | ⟨1, _⟩ => exact (hl1 _ _).trans hk)
  have er : d.rhsIdx (ix2 i j) ((contrEquiv1 d K hr hs).symm k) = ix2 j k := funext fun a => Fin.ext (by
    match a with
    | ⟨0, _⟩ => exact hr0 _ _
    | ⟨1, _⟩ => exact (hr1 _ _).trans hk)
  rw [el, er]

/-- Both operands contracted on their FIRST axis, into a zero accumulator: `out (i, j) = Σ k, A (k, i) · B (k, j)`. -/
theorem matmul_tn_apply {M K N : ℕ} {φ₁ φ₂ : FTy} (d : DotDims ⟨2, ![K, M]⟩ ⟨2, ![K, N]⟩ ⟨2, ![M, N]⟩)
    (prec : Option ContractPrecision) (hr : d.contr.rank = 1) (hs : d.contr.size ⟨0, by omega⟩ = K)
    (hl0 : ∀ j q, (d.lhsIdx j q 0).val = (q ⟨0, by omega⟩).val) (hl1 : ∀ j q, (d.lhsIdx j q 1).val = (j 0).val)
    (hr0 : ∀ j q, (d.rhsIdx j q 0).val = (q ⟨0, by omega⟩).val) (hr1 : ∀ j q, (d.rhsIdx j q 1).val = (j 1).val)
    (A : FVec Ideal ⟨2, ![K, M]⟩ φ₁) (B : FVec Ideal ⟨2, ![K, N]⟩ φ₂) (i : Fin M) (j : Fin N) :
    matmul d prec A B (constant ⟨2, ![M, N]⟩ .f32 0x00000000#32) (ix2 i j) = ∑ k : Fin K, A (ix2 k i) * B (ix2 k j) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 k i := funext fun a => Fin.ext (by
    match a with
    | ⟨0, _⟩ => exact (hl0 _ _).trans hk
    | ⟨1, _⟩ => exact hl1 _ _)
  have er : d.rhsIdx (ix2 i j) ((contrEquiv1 d K hr hs).symm k) = ix2 k j := funext fun a => Fin.ext (by
    match a with
    | ⟨0, _⟩ => exact (hr0 _ _).trans hk
    | ⟨1, _⟩ => exact hr1 _ _)
  rw [el, er]

end Cert.RowOps

end
-- ==== Proof.LibMatmulNN.lean ====
/-
  A matrix product whose left operand is contracted on its SECOND axis and whose right operand on its FIRST (an M×K
  array times a K×N array, the plain row-by-column product), accumulated into zero, read at one entry of the result on
  the extended reals: entry (i, j) is the sum over k of left (i, k) · right (k, j).  Every extent and both operand
  formats are arbitrary; the dimension record is any record with that contraction, its structural facts passed as
  hypotheses (four coordinate facts of its index maps, the contraction's rank and size), each closed by rfl or by
  unfolding at a printed record.
-/
import Idealize.ShloMosaic.PureOps.Ideal.Laws
import Idealize.ShloMosaic.Lib.ValueIdx

noncomputable section

open scoped BigOperators

namespace Cert.MatmulNN

open Idealize.ShloMosaic Idealize.ShloMosaic.ValueIdx

/-- The left operand contracted on its SECOND axis and the right on its FIRST, into a zero accumulator:
    out (i, j) = Σ k, A (i, k) · B (k, j). -/
theorem matmul_nn_apply {M K N : ℕ} {φ₁ φ₂ : FTy} (d : DotDims ⟨2, ![M, K]⟩ ⟨2, ![K, N]⟩ ⟨2, ![M, N]⟩)
    (prec : Option ContractPrecision) (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (A : FVec Ideal ⟨2, ![M, K]⟩ φ₁) (B : FVec Ideal ⟨2, ![K, N]⟩ φ₂) (i : Fin M) (j : Fin N) :
    matmul d prec A B (constant ⟨2, ![M, N]⟩ .f32 0x00000000#32) (ix2 i j) = ∑ k : Fin K, A (ix2 i k) * B (ix2 k j) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact hl0 _ _
    | ⟨1, _⟩ => exact (hl1 _ _).trans hk)
  have er : d.rhsIdx (ix2 i j) ((contrEquiv1 d K hr hs).symm k) = ix2 k j := funext fun a => Fin.ext (by
    match a with
    | ⟨0, _⟩ => exact (hr0 _ _).trans hk
    | ⟨1, _⟩ => exact hr1 _ _)
  rw [el, er]

end Cert.MatmulNN

end
-- ==== Proof.Addressing.lean ====
/-
  Memory addressing by cosine similarity with hard shrinkage, one row at a time, on the extended reals.

  A query row `z` (256 features) is compared with every one of the 2000 rows of a memory bank `M`:
  `cosine z M ν n = (Σ c, z c · M n c) / (√(Σ c, z c²) · ν n + ε)`, where `ν n` is the norm of bank row `n`
  (`bankNorm M n = √(Σ c, M n c²)`).  The cosines are turned into weights by a softmax taken against the row's
  maximum, each weight `w` is shrunk to `max (w − δ) 0 / (|w − δ| + ε) · w`, the shrunk weights are divided by
  their absolute sum plus `ε`, and the result reads the bank back: `readout z M ν c = Σ n, address z M ν n · M n c`.
  The constants `ε`, `δ`, `0` and `−∞` are kept as the binary words both programs spell them with.
-/
import Idealize.ShloMosaic.PureOps.Ideal
import Idealize.ShloMosaic.Lib.ValueIdx

noncomputable section

open scoped BigOperators

namespace Cert.MemAddr

open Idealize.ShloMosaic

/-- A query row: 256 features. -/
abbrev Row := Fin 256 → Ideal .f32
/-- The memory bank: 2000 rows of 256 features. -/
abbrev Bank := Fin 2000 → Fin 256 → Ideal .f32
/-- One value per bank row. -/
abbrev Weights := Fin 2000 → Ideal .f32

/-- The norm of each bank row. -/
def bankNorm (M : Bank) : Weights := fun n => Ideal.sqrt (∑ c : Fin 256, M n c * M n c)

/-- The cosine of the query with bank row `n`, the product of the norms padded by `ε`. -/
def cosine (z : Row) (M : Bank) (ν : Weights) : Weights := fun n =>
  Ideal.div (∑ c : Fin 256, z c * M n c)
    (Ideal.sqrt (∑ c : Fin 256, z c * z c) * ν n + Ideal.ofBits .f32 0x283424DC#32)

/-- The largest of the values, taken from `−∞` (and once more against `−∞`, as both programs do). -/
def peak (f : Weights) : Ideal .f32 :=
  max (Ideal.ofBits .f32 0xFF800000#32)
    ((Finset.univ : Finset (Fin 2000)).fold max (Ideal.ofBits .f32 0xFF800000#32) f)

theorem peak_def (f : Weights) : peak f = max (Ideal.ofBits .f32 0xFF800000#32)
    ((Finset.univ : Finset (Fin 2000)).fold max (Ideal.ofBits .f32 0xFF800000#32) f) := rfl

/-- The softmax of the values, the exponentials taken against the peak. -/
def softmax (f : Weights) : Weights := fun n =>
  Ideal.div (Ideal.exp (f n - peak f)) (∑ k : Fin 2000, Ideal.exp (f k - peak f))

theorem softmax_apply (f : Weights) (n : Fin 2000) :
    softmax f n = Ideal.div (Ideal.exp (f n - peak f)) (∑ k : Fin 2000, Ideal.exp (f k - peak f)) := rfl

/-- Hard shrinkage of one weight: `max (w − δ) 0 / (|w − δ| + ε) · w`. -/
def shrink (w : Ideal .f32) : Ideal .f32 :=
  Ideal.div (max (w - Ideal.ofBits .f32 0x3983126F#32) (Ideal.ofBits .f32 0x00000000#32))
    (max (w - Ideal.ofBits .f32 0x3983126F#32) (-(w - Ideal.ofBits .f32 0x3983126F#32)) + Ideal.ofBits .f32 0x283424DC#32) * w

/-- Division by the absolute sum, padded by `ε`. -/
def renorm (g : Weights) : Weights := fun n =>
  Ideal.div (g n) ((∑ k : Fin 2000, max (g k) (-(g k))) + Ideal.ofBits .f32 0x283424DC#32)

/-- The addressing weights of a query row. -/
def address (z : Row) (M : Bank) (ν : Weights) : Weights :=
  renorm (fun k => shrink (softmax (cosine z M ν) k))

/-- The bank read back through the addressing weights. -/
def readout (z : Row) (M : Bank) (ν : Weights) : Row := fun c =>
  ∑ n : Fin 2000, address z M ν n * M n c

end Cert.MemAddr

end
-- ==== Proof.KernelRows.lean ====
/-
  The kernel body's two stored values, read one entry at a time on the extended reals.

  The body works on a tile of 512 query rows `x0`, the whole bank `x1` and the bank's row norms `x2` (one row of 2000).
  Its arithmetic is cut here into four layers, each a function of the layer before it — the cosines, the softmax over a
  row, the hard shrinkage, the division by the absolute row sum — and a final product with the bank.  Entry `(p, n)` of
  every layer depends on row `p` of the tile only, and is the corresponding function of `Cert.MemAddr` of that row:
  the stored weights are `address`, the stored read-back is `readout`.
-/
import proofs.«132186_j2774548873902_1_alg».proof.Proof.Gen.KernelIdeal.Skeleton
import proofs.«132186_j2774548873902_1_alg».proof.Proof.LibRowOps
import proofs.«132186_j2774548873902_1_alg».proof.Proof.LibMatmulNN
import proofs.«132186_j2774548873902_1_alg».proof.Proof.Addressing
import Idealize.ShloMosaic.Lib.ValueLayout

noncomputable section

open scoped BigOperators

namespace Cert.KernelIdeal.Rows

open Cert.KernelIdeal Cert.KernelIdeal.Gen Idealize.ShloMosaic Idealize.ShloMosaic.ValueIdx Cert.MemAddr Cert.RowOps Cert.MatmulNN

/-! ## The two products' index maps -/

/-- The product of the tile with the bank, both contracted on their feature axis. -/
abbrev dNT := dot_S512x256_S2000x256_S512x2000_1_1_0_0_n_n
/-- The product of the weights with the bank, the weights' bank-row axis against the bank's. -/
abbrev dNN := dot_S512x2000_S2000x256_S512x256_1_0_0_1_n_n

theorem dNT_l0 (j : S512x2000.Idx) (q : dNT.contr.Idx) : (dNT.lhsIdx j q 0).val = (j 0).val := by
  unfold DotDims.lhsIdx
  rw [dif_neg (show ¬(0 : Fin S512x256.rank) ∈ dNT.lhsBatch by decide), dif_pos (show (0 : Fin S512x256.rank) ∈ dNT.lhsNonContracting by decide)]
  rfl
theorem dNT_l1 (j : S512x2000.Idx) (q : dNT.contr.Idx) : (dNT.lhsIdx j q 1).val = (q ⟨0, by decide⟩).val :=
  dNT.lhsIdx_val_of_single rfl j q
theorem dNT_r0 (j : S512x2000.Idx) (q : dNT.contr.Idx) : (dNT.rhsIdx j q 0).val = (j 1).val := by
  unfold DotDims.rhsIdx
  rw [dif_neg (show ¬(0 : Fin S2000x256.rank) ∈ dNT.rhsBatch by decide), dif_pos (show (0 : Fin S2000x256.rank) ∈ dNT.rhsNonContracting by decide)]
  rfl
theorem dNT_r1 (j : S512x2000.Idx) (q : dNT.contr.Idx) : (dNT.rhsIdx j q 1).val = (q ⟨0, by decide⟩).val :=
  dNT.rhsIdx_val_of_single rfl j q

theorem dNN_l0 (j : S512x256.Idx) (q : dNN.contr.Idx) : (dNN.lhsIdx j q 0).val = (j 0).val := by
  unfold DotDims.lhsIdx
  rw [dif_neg (show ¬(0 : Fin S512x2000.rank) ∈ dNN.lhsBatch by decide), dif_pos (show (0 : Fin S512x2000.rank) ∈ dNN.lhsNonContracting by decide)]
  rfl
theorem dNN_l1 (j : S512x256.Idx) (q : dNN.contr.Idx) : (dNN.lhsIdx j q 1).val = (q ⟨0, by decide⟩).val :=
  dNN.lhsIdx_val_of_single rfl j q
theorem dNN_r0 (j : S512x256.Idx) (q : dNN.contr.Idx) : (dNN.rhsIdx j q 0).val = (q ⟨0, by decide⟩).val :=
  dNN.rhsIdx_val_of_single rfl j q
theorem dNN_r1 (j : S512x256.Idx) (q : dNN.contr.Idx) : (dNN.rhsIdx j q 1).val = (j 1).val := by
  unfold DotDims.rhsIdx
  rw [dif_neg (show ¬(1 : Fin S2000x256.rank) ∈ dNN.rhsBatch by decide), dif_pos (show (1 : Fin S2000x256.rank) ∈ dNN.rhsNonContracting by decide)]
  rfl

/-! ## Pointwise functions at an entry -/

theorem sqrt_apply {s : Shape} {φ : FTy} (a : FVec Ideal s φ) (i : s.Idx) : sqrt a i = Ideal.sqrt (a i) := rfl
theorem exp_apply {s : Shape} {φ : FTy} (a : FVec Ideal s φ) (i : s.Idx) : exp a i = Ideal.exp (a i) := rfl
theorem absf_apply {s : Shape} {φ : FTy} (a : FVec Ideal s φ) (i : s.Idx) : absf a i = max (a i) (-(a i)) := rfl

/-! ## The layers, in the body's own operations -/

/-- The cosines of the tile's rows with the bank's rows. -/
def tileCos (x0 : FVec Ideal S512x256 .f32) (x1 : FVec Ideal S2000x256 .f32) (x2 : FVec Ideal S1x2000 .f32) : FVec Ideal S512x2000 .f32 :=
  have v1 : FVec Ideal S512x256 .f32 := shapeCast S512x256 x0 shapeCasts_S512x256_S512x256
  have v4 : FVec Ideal S1x2000 .f32 := shapeCast S1x2000 x2 shapeCasts_S1x2000_S1x2000
  have v5 : FVec Ideal S512x256 .bf16 := truncf .bf16 v1 bitsLt_bf16_f32
  have cst : FVec Ideal S512x2000 .f32 := constant S512x2000 .f32 0x00000000#32
  have v7 : FVec Ideal S512x2000 .f32 := matmul dot_S512x256_S2000x256_S512x2000_1_1_0_0_n_n none v5 (k0_pay3 x1) cst
  have v8 : FVec Ideal S512x256 .f32 := mulf v1 v1
  have v9 : FVec Ideal S512 .f32 := multiReduction .add [1] S512 v8 0x00000000#32 reduces_S512x256_S512 (.inl rfl) rfl
  have v10 : FVec Ideal S512x1 .f32 := shapeCast S512x1 v9 shapeCasts_S512_S512x1
  have v11 : FVec Ideal S512x1 .f32 := sqrt v10
  have v12 : FVec Ideal S512x2000 .f32 := broadcastTo S512x2000 v11 broadcasts_S512x1_S512x2000
  have v13 : FVec Ideal S512x2000 .f32 := broadcastTo S512x2000 v4 broadcasts_S1x2000_S512x2000
  have v14 : FVec Ideal S512x2000 .f32 := mulf v12 v13
  have cst_6 : Ideal .f32 := Scalar.ofBits .f32 0x283424DC#32
  have v15 : FVec Ideal S512x2000 .f32 := broadcast S512x2000 cst_6
  have v16 : FVec Ideal S512x2000 .f32 := addf v14 v15
  divf v7 v16

/-- The softmax of each row. -/
def tileSoftmax (v17 : FVec Ideal S512x2000 .f32) : FVec Ideal S512x2000 .f32 :=
  have v18 : FVec Ideal S512 .f32 := multiReduction .maximumf [1] S512 v17 0xFF800000#32 reduces_S512x2000_S512 (.inl rfl) rfl
  have cst_8 : Ideal .f32 := Scalar.ofBits .f32 0xFF800000#32
  have v19 : FVec Ideal S512 .f32 := broadcast S512 cst_8
  have v20 : FVec Ideal S512 .f32 := maximumf v19 v18
  have v21 : FVec Ideal S512x1 .f32 := shapeCast S512x1 v20 shapeCasts_S512_S512x1
  have v22 : FVec Ideal S512x2000 .f32 := broadcastTo S512x2000 v21 broadcasts_S512x1_S512x2000
  have v23 : FVec Ideal S512x2000 .f32 := subf v17 v22
  have v24 : FVec Ideal S512x2000 .f32 := exp v23
  have v25 : FVec Ideal S512 .f32 := multiReduction .add [1] S512 v24 0x00000000#32 reduces_S512x2000_S512 (.inl rfl) rfl
  have v26 : FVec Ideal S512x1 .f32 := shapeCast S512x1 v25 shapeCasts_S512_S512x1
  have v27 : FVec Ideal S512x2000 .f32 := broadcastTo S512x2000 v26 broadcasts_S512x1_S512x2000
  divf v24 v27

/-- The hard shrinkage of every weight. -/
def tileShrink (v28 : FVec Ideal S512x2000 .f32) : FVec Ideal S512x2000 .f32 :=
  have cst_10 : Ideal .f32 := Scalar.ofBits .f32 0x3983126F#32
  have v29 : FVec Ideal S512x2000 .f32 := broadcast S512x2000 cst_10
  have v30 : FVec Ideal S512x2000 .f32 := subf v28 v29
  have cst_11 : Ideal .f32 := Scalar.ofBits .f32 0x00000000#32
  have v31 : FVec Ideal S512x2000 .f32 := broadcast S512x2000 cst_11
  have v32 : FVec Ideal S512x2000 .f32 := maximumf v30 v31
  have v33 : FVec Ideal S512x2000 .f32 := absf v30
  have cst_12 : Ideal .f32 := Scalar.ofBits .f32 0x283424DC#32
  have v34 : FVec Ideal S512x2000 .f32 := broadcast S512x2000 cst_12
  have v35 : FVec Ideal S512x2000 .f32 := addf v33 v34
  have v36 : FVec Ideal S512x2000 .f32 := divf v32 v35
  mulf v36 v28

/-- The division of every row by its absolute sum. -/
def tileRenorm (v37 : FVec Ideal S512x2000 .f32) : FVec Ideal S512x2000 .f32 :=
  have v38 : FVec Ideal S512x2000 .f32 := absf v37
  have v39 : FVec Ideal S512 .f32 := multiReduction .add [1] S512 v38 0x00000000#32 reduces_S512x2000_S512 (.inl rfl) rfl
  have v40 : FVec Ideal S512x1 .f32 := shapeCast S512x1 v39 shapeCasts_S512_S512x1
  k0_pay1 v37 v40 (k0_pay6 (F := Ideal))

/-- The body's shrunk weights are the three layers composed. -/
theorem pay4_layers (x0 : FVec Ideal S512x256 .f32) (x1 : FVec Ideal S2000x256 .f32) (x2 : FVec Ideal S1x2000 .f32) :
    k0_pay4 (F := Ideal) x0 x1 x2 = tileShrink (tileSoftmax (tileCos x0 x1 x2)) := rfl

/-- The stored weights are the fourth layer of the shrunk ones. -/
theorem pay1_layers (x0 : FVec Ideal S512x256 .f32) (x1 : FVec Ideal S2000x256 .f32) (x2 : FVec Ideal S1x2000 .f32) :
    k0_pay1 (k0_pay4 (F := Ideal) x0 x1 x2) (k0_pay5 x0 x1 x2) (k0_pay6 (F := Ideal)) = tileRenorm (k0_pay4 (F := Ideal) x0 x1 x2) := rfl

/-! ## Each layer at an entry -/

/-- A row's sum, for any array of the weights' shape. -/
theorem laneSum (E : FVec Ideal S512x2000 .f32) (p : Fin 512) :
    multiReduction .add [1] S512 E 0x00000000#32 reduces_S512x2000_S512 (.inl rfl) rfl (ix1 p) = ∑ k : Fin 2000, E (ix2 p k) :=
  rowSum_apply E 0x00000000#32 reduces_S512x2000_S512 (.inl rfl) rfl p

/-- A row's maximum from `−∞`, for any array of the weights' shape. -/
theorem laneMax (E : FVec Ideal S512x2000 .f32) (p : Fin 512) :
    multiReduction .maximumf [1] S512 E 0xFF800000#32 reduces_S512x2000_S512 (.inl rfl) rfl (ix1 p)
      = (Finset.univ : Finset (Fin 2000)).fold max (Ideal.ofBits .f32 0xFF800000#32) (fun k => E (ix2 p k)) :=
  rowMax_apply E 0xFF800000#32 reduces_S512x2000_S512 (.inl rfl) rfl p

/-- Entry `(p, n)` of the cosines is the cosine of row `p` of the tile with bank row `n`. -/
theorem tileCos_apply (x0 : FVec Ideal S512x256 .f32) (x1 : FVec Ideal S2000x256 .f32) (x2 : FVec Ideal S1x2000 .f32) (p : Fin 512) (n : Fin 2000) :
    tileCos x0 x1 x2 (ix2 p n) = cosine (fun c => x0 (ix2 p c)) (fun k c => x1 (ix2 k c)) (fun k => x2 (ix2 (0 : Fin 1) k)) n := by
  have hmm := matmul_nt_apply dNT none rfl rfl dNT_l0 dNT_l1 dNT_r0 dNT_r1
    (truncf .bf16 (shapeCast S512x256 x0 shapeCasts_S512x256_S512x256) bitsLt_bf16_f32 : FVec Ideal S512x256 .bf16)
    (truncf .bf16 x1 bitsLt_bf16_f32 : FVec Ideal S2000x256 .bf16) p n
  have hss := rowSum_apply (mulf (shapeCast S512x256 x0 shapeCasts_S512x256_S512x256) (shapeCast S512x256 x0 shapeCasts_S512x256_S512x256))
    0x00000000#32 reduces_S512x256_S512 (.inl rfl) rfl p
  unfold tileCos k0_pay3 cosine
  simp only [divf_apply, addf_apply, subf_apply, mulf_apply, maximumf_apply, broadcast_apply, sqrt_apply, exp_apply, absf_apply, broadcastTo_a1_ab_apply, broadcastTo_1b_ab_apply, shapeCast_a_a1_apply, shapeCast_self, truncf_apply, Scalar.ofBits, Ideal.ofBits_def] at hmm hss ⊢
  rw [hmm, hss]

/-- Entry `(p, n)` of the softmax layer is the softmax of row `p` at `n`. -/
theorem tileSoftmax_apply (C : FVec Ideal S512x2000 .f32) (p : Fin 512) (n : Fin 2000) :
    tileSoftmax C (ix2 p n) = softmax (fun k => C (ix2 p k)) n := by
  unfold tileSoftmax
  simp only [divf_apply, addf_apply, subf_apply, mulf_apply, sqrt_apply, exp_apply, absf_apply, broadcastTo_a1_ab_apply, broadcastTo_1b_ab_apply, shapeCast_a_a1_apply, shapeCast_self, truncf_apply, Scalar.ofBits, Ideal.ofBits_def]
  rw [laneSum]
  simp only [divf_apply, addf_apply, subf_apply, mulf_apply, sqrt_apply, exp_apply, absf_apply, broadcastTo_a1_ab_apply, broadcastTo_1b_ab_apply, shapeCast_a_a1_apply, shapeCast_self, truncf_apply, Scalar.ofBits, Ideal.ofBits_def]
  rw [maximumf_apply, broadcast_apply, laneMax, softmax_apply, peak_def]

/-- The shrinkage acts on each entry by itself. -/
theorem tileShrink_apply (W : FVec Ideal S512x2000 .f32) (p : Fin 512) (n : Fin 2000) :
    tileShrink W (ix2 p n) = shrink (W (ix2 p n)) := by
  unfold tileShrink shrink
  simp only [divf_apply, addf_apply, subf_apply, mulf_apply, maximumf_apply, broadcast_apply, sqrt_apply, exp_apply, absf_apply, broadcastTo_a1_ab_apply, broadcastTo_1b_ab_apply, shapeCast_a_a1_apply, shapeCast_self, truncf_apply, Scalar.ofBits, Ideal.ofBits_def]

/-- Entry `(p, n)` of the last layer is row `p` divided by its absolute sum, at `n`. -/
theorem tileRenorm_apply (G : FVec Ideal S512x2000 .f32) (p : Fin 512) (n : Fin 2000) :
    tileRenorm G (ix2 p n) = renorm (fun k => G (ix2 p k)) n := by
  unfold tileRenorm k0_pay1 k0_pay6 renorm
  simp only [divf_apply, addf_apply, subf_apply, mulf_apply, maximumf_apply, broadcast_apply, sqrt_apply, exp_apply, absf_apply, broadcastTo_a1_ab_apply, broadcastTo_1b_ab_apply, shapeCast_a_a1_apply, shapeCast_self, truncf_apply, Scalar.ofBits, Ideal.ofBits_def]
  rw [laneSum]
  simp only [divf_apply, addf_apply, subf_apply, mulf_apply, maximumf_apply, broadcast_apply, sqrt_apply, exp_apply, absf_apply, broadcastTo_a1_ab_apply, broadcastTo_1b_ab_apply, shapeCast_a_a1_apply, shapeCast_self, truncf_apply, Scalar.ofBits, Ideal.ofBits_def]

/-- The read-back at `(p, c)`: the stored weights of row `p` against column `c` of the bank. -/
theorem pay2_apply (x1 : FVec Ideal S2000x256 .f32) (G : FVec Ideal S512x2000 .f32) (v40 v41 : FVec Ideal S512x1 .f32) (p : Fin 512) (c : Fin 256) :
    k0_pay2 (k0_pay3 x1) G v40 v41 (ix2 p c) = ∑ n : Fin 2000, k0_pay1 G v40 v41 (ix2 p n) * x1 (ix2 n c) := by
  have hmm := matmul_nn_apply dNN none rfl rfl dNN_l0 dNN_l1 dNN_r0 dNN_r1
    (truncf .bf16 (k0_pay1 G v40 v41) bitsLt_bf16_f32 : FVec Ideal S512x2000 .bf16)
    (truncf .bf16 x1 bitsLt_bf16_f32 : FVec Ideal S2000x256 .bf16) p c
  unfold k0_pay2 k0_pay3
  simp only [truncf_apply] at hmm ⊢
  exact hmm

/-! ## The two stored values -/

/-- THE STORED WEIGHTS at `(p, n)`: the addressing weights of row `p` of the tile. -/
theorem stored_weights (x0 : FVec Ideal S512x256 .f32) (x1 : FVec Ideal S2000x256 .f32) (x2 : FVec Ideal S1x2000 .f32) (p : Fin 512) (n : Fin 2000) :
    k0_pay1 (k0_pay4 (F := Ideal) x0 x1 x2) (k0_pay5 x0 x1 x2) (k0_pay6 (F := Ideal)) (ix2 p n)
      = address (fun c => x0 (ix2 p c)) (fun k c => x1 (ix2 k c)) (fun k => x2 (ix2 (0 : Fin 1) k)) n := by
  rw [pay1_layers, pay4_layers, tileRenorm_apply]
  simp only [tileShrink_apply, tileSoftmax_apply, tileCos_apply]
  rfl

/-- THE STORED READ-BACK at `(p, c)`: the bank read through the addressing weights of row `p`. -/
theorem stored_readout (x0 : FVec Ideal S512x256 .f32) (x1 : FVec Ideal S2000x256 .f32) (x2 : FVec Ideal S1x2000 .f32) (p : Fin 512) (c : Fin 256) :
    k0_pay2 (k0_pay3 x1) (k0_pay4 (F := Ideal) x0 x1 x2) (k0_pay5 x0 x1 x2) (k0_pay6 (F := Ideal)) (ix2 p c)
      = readout (fun c => x0 (ix2 p c)) (fun k c => x1 (ix2 k c)) (fun k => x2 (ix2 (0 : Fin 1) k)) c := by
  rw [pay2_apply]
  unfold readout
  simp only [stored_weights]

end Cert.KernelIdeal.Rows

end
-- ==== Proof.KernelArrays.lean ====
/-
  The kernel's two result arrays after the run, as whole-array functions of the arrays the region finds.

  The grid has 32 points; point `t` reads rows `512·t … 512·t + 511` of the flattened query array (16384 rows), the whole
  bank and the bank's row norms, and writes rows `512·t … 512·t + 511` of the weights (16384 × 2000) and of the read-back
  (16384 × 256).  Row `r` of either result depends on row `r` of the flattened queries only, so each result array is ONE
  function of the array index, and the 32 blocks cover it.
-/
import proofs.«132186_j2774548873902_1_alg».proof.Proof.Gen.KernelIdeal.Frame
import proofs.«132186_j2774548873902_1_alg».proof.Proof.KernelRows
import Idealize.ShloMosaic.Lib.Pipeline.Value
import Idealize.ShloMosaic.Lib.Tactic
import Idealize.ShloMosaic.Lib.StableHlo.Run
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Rows Idealize.ShloMosaic.ValueIdx Cert.MemAddr

variable (m : (ℓ : Loc nD τ sig) → Buf (Elt Ideal) ℓ) (ρ : Dev nD → PrngReg)

theorem hz : (![0, 0] : Fin 2 → Nat) = fun _ => 0 := funext fun a => by fin_cases a <;> rfl

/-! ## The results as functions of the row -/

/-- The addressing weights of row `r` of a flattened query array `A0`, against the bank `A1` with row norms `A4`. -/
def rowAddress (A0 : S16384x256.Idx → Elt Ideal .f32) (A1 : S2000x256.Idx → Elt Ideal .f32) (A4 : S1x2000.Idx → Elt Ideal .f32)
    (r : Fin 16384) : Weights :=
  address (fun cc => A0 (ix2 r cc)) (fun k cc => A1 (ix2 k cc)) (fun k => A4 (ix2 (0 : Fin 1) k))

/-- The bank read back through them. -/
def rowReadout (A0 : S16384x256.Idx → Elt Ideal .f32) (A1 : S2000x256.Idx → Elt Ideal .f32) (A4 : S1x2000.Idx → Elt Ideal .f32)
    (r : Fin 16384) : Row :=
  readout (fun cc => A0 (ix2 r cc)) (fun k cc => A1 (ix2 k cc)) (fun k => A4 (ix2 (0 : Fin 1) k))

/-- The weights array the region leaves. -/
def weightsArr (A0 : S16384x256.Idx → Elt Ideal .f32) (A1 : S2000x256.Idx → Elt Ideal .f32) (A4 : S1x2000.Idx → Elt Ideal .f32) :
    S16384x2000.Idx → Elt Ideal .f32 := fun i => rowAddress A0 A1 A4 (i 0) (i 1)

/-- The read-back array the region leaves. -/
def readArr (A0 : S16384x256.Idx → Elt Ideal .f32) (A1 : S2000x256.Idx → Elt Ideal .f32) (A4 : S1x2000.Idx → Elt Ideal .f32) :
    S16384x256.Idx → Elt Ideal .f32 := fun i => rowReadout A0 A1 A4 (i 0) (i 1)

/-! ## The index maps over the grid -/

/-- Point `t` is at block row `t` of the queries and of both results, and at the one block of the bank and of the norms. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## The input blocks, read off the arrays -/

/-- Row `p` of the query tile at point `t` is row `512·t + p` of the flattened queries. -/
theorem read_queries (c : Dev nD) (t : Fin cfg0.N) (p : Fin 512) (cc : Fin 256) (r : Fin 16384) (hr : r.val = t.val * 512 + p.val) :
    (iblk m c 0 t : Vec Ideal S512x256 .f32) (ix2 p cc) = (V m c main_v0 : S16384x256.Idx → Elt Ideal .f32) (ix2 r cc) := by
  obtain ⟨e0, e1, -⟩ := idx_facts t
  unfold iblk
  rw [View.read_apply]
  show (V m c main_v0 : S16384x256.Idx → Elt Ideal .f32) _ = V m c main_v0 _
  refine congrArg (V m c main_v0 : S16384x256.Idx → Elt Ideal .f32) ?_
  funext a
  apply Fin.ext
  match a with
  | ⟨0, _⟩ => show win0_0.index t (0 : Fin 2) * 512 + 1 * p.val = r.val; omega
  | ⟨1, _⟩ => show win0_0.index t (1 : Fin 2) * 256 + 1 * cc.val = cc.val; omega

/-- The bank's block is the bank. -/
theorem read_bank (c : Dev nD) (t : Fin cfg0.N) (k : Fin 2000) (cc : Fin 256) :
    (iblk m c 1 t : Vec Ideal S2000x256 .f32) (ix2 k cc) = (V m c main_arg1 : S2000x256.Idx → Elt Ideal .f32) (ix2 k cc) := by
  obtain ⟨-, -, e0, e1, -⟩ := idx_facts t
  unfold iblk
  rw [View.read_apply]
  show (V m c main_arg1 : S2000x256.Idx → Elt Ideal .f32) _ = V m c main_arg1 _
  refine congrArg (V m c main_arg1 : S2000x256.Idx → Elt Ideal .f32) ?_
  funext a
  apply Fin.ext
  match a with
  | ⟨0, _⟩ => show win0_1.index t (0 : Fin 2) * 2000 + 1 * k.val = k.val; omega
  | ⟨1, _⟩ => show win0_1.index t (1 : Fin 2) * 256 + 1 * cc.val = cc.val; omega

/-- The norms' block is the row of norms. -/
theorem read_norms (c : Dev nD) (t : Fin cfg0.N) (k : Fin 2000) :
    (iblk m c 2 t : Vec Ideal S1x2000 .f32) (ix2 (0 : Fin 1) k) = (V m c main_v4 : S1x2000.Idx → Elt Ideal .f32) (ix2 (0 : Fin 1) k) := by
  obtain ⟨-, -, -, -, e0, e1, -⟩ := idx_facts t
  unfold iblk
  rw [View.read_apply]
  show (V m c main_v4 : S1x2000.Idx → Elt Ideal .f32) _ = V m c main_v4 _
  refine congrArg (V m c main_v4 : S1x2000.Idx → Elt Ideal .f32) ?_
  funext a
  apply Fin.ext
  match a with
  | ⟨0, _⟩ => show win0_2.index t (0 : Fin 2) * 1 + 1 * 0 = 0; omega
  | ⟨1, _⟩ => show win0_2.index t (1 : Fin 2) * 2000 + 1 * k.val = k.val; omega

/-! ## What a point writes back -/

/-- Entry `j` of the weights a point stores, with the tile's row named by the entry's own coordinates. -/
theorem stored_weights_at (x0 : FVec Ideal S512x256 .f32) (x1 : FVec Ideal S2000x256 .f32) (x2 : FVec Ideal S1x2000 .f32) (j : S512x2000.Idx) :
    k0_pay1 (k0_pay4 (F := Ideal) x0 x1 x2) (k0_pay5 x0 x1 x2) (k0_pay6 (F := Ideal)) j
      = address (fun cc => x0 (ix2 (j 0) cc)) (fun k cc => x1 (ix2 k cc)) (fun k => x2 (ix2 (0 : Fin 1) k)) (j 1) := by
  obtain ⟨p, n, rfl⟩ : ∃ (p : Fin 512) (n : Fin 2000), j = ix2 p n := ⟨j 0, j 1, eq_ix2 j⟩
  exact stored_weights x0 x1 x2 p n

/-- Entry `j` of the read-back a point stores. -/
theorem stored_readout_at (x0 : FVec Ideal S512x256 .f32) (x1 : FVec Ideal S2000x256 .f32) (x2 : FVec Ideal S1x2000 .f32) (j : S512x256.Idx) :
    k0_pay2 (k0_pay3 x1) (k0_pay4 (F := Ideal) x0 x1 x2) (k0_pay5 x0 x1 x2) (k0_pay6 (F := Ideal)) j
      = readout (fun cc => x0 (ix2 (j 0) cc)) (fun k cc => x1 (ix2 k cc)) (fun k => x2 (ix2 (0 : Fin 1) k)) (j 1) := by
  obtain ⟨p, q, rfl⟩ : ∃ (p : Fin 512) (q : Fin 256), j = ix2 p q := ⟨j 0, j 1, eq_ix2 j⟩
  exact stored_readout x0 x1 x2 p q

/-- The three rows a point's entry depends on are rows of the arrays the region finds. -/
theorem rows_at (c : Dev nD) (t : Fin cfg0.N) (p : Fin 512) (r : Fin 16384) (hr : r.val = t.val * 512 + p.val) :
    (fun cc => (iblk m c 0 t : Vec Ideal S512x256 .f32) (ix2 p cc)) = (fun cc => (V m c main_v0 : S16384x256.Idx → Elt Ideal .f32) (ix2 r cc))
    ∧ (fun k cc => (iblk m c 1 t : Vec Ideal S2000x256 .f32) (ix2 k cc)) = (fun k cc => (V m c main_arg1 : S2000x256.Idx → Elt Ideal .f32) (ix2 k cc))
    ∧ (fun k => (iblk m c 2 t : Vec Ideal S1x2000 .f32) (ix2 (0 : Fin 1) k)) = (fun k => (V m c main_v4 : S1x2000.Idx → Elt Ideal .f32) (ix2 (0 : Fin 1) k)) :=
  ⟨funext fun cc => read_queries m c t p cc r hr, funext fun k => funext fun cc => read_bank m c t k cc, funext fun k => read_norms m c t k⟩

/-- WHAT POINT `t` WRITES BACK to the weights is block `t` of the weights array. -/
theorem flushed_weights (c : Dev nD) (t : Fin cfg0.N) :
    (dats m 0 c).flushed 3 t = ((cfg0.win 3).blk t).view.read (Elt Ideal)
      (weightsArr (V m c main_v0) (V m c main_arg1) (V m c main_v4)) := by
  show (cfg0.win 3).cut (grid0.coords t) ((dats m 0 c).after 3 t) = _
  rw [after0_3]
  unfold out0_3
  rw [View.canon_unit_zero hz]
  simp only [View.ld_unit_zero (S := S512x256) hz, View.ld_unit_zero (S := S2000x256) hz, View.ld_unit_zero (S := S1x2000) hz]
  obtain ⟨-, -, -, -, -, -, e0, e1, -⟩ := idx_facts t
  funext j
  have hN : cfg0.N = 32 := N_0
  have ht : t.val < 32 := by have := t.isLt; omega
  have hj0 : (j 0).val < 512 := (j 0).isLt
  refine (stored_weights_at (iblk m c 0 t) (iblk m c 1 t) (iblk m c 2 t) j).trans ?_
  obtain ⟨h0, h1, h2⟩ := rows_at m c t (j 0) ⟨t.val * 512 + (j 0).val, by omega⟩ rfl
  rw [h0, h1, h2]
  show address _ _ _ (j 1) = weightsArr (V m c main_v0) (V m c main_arg1) (V m c main_v4) (((cfg0.win 3).blk t).view.emb j)
  unfold weightsArr rowAddress
  have hr : (((cfg0.win 3).blk t).view.emb j) 0 = (⟨t.val * 512 + (j 0).val, by omega⟩ : Fin 16384) :=
    Fin.ext (by show win0_3.index t (0 : Fin 2) * 512 + 1 * (j 0).val = t.val * 512 + (j 0).val; omega)
  have hc : (((cfg0.win 3).blk t).view.emb j) 1 = j 1 :=
    Fin.ext (by show win0_3.index t (1 : Fin 2) * 2000 + 1 * (j 1).val = (j 1).val; omega)
  rw [hr, hc]

/-- WHAT POINT `t` WRITES BACK to the read-back is block `t` of the read-back array. -/
theorem flushed_readout (c : Dev nD) (t : Fin cfg0.N) :
    (dats m 0 c).flushed 4 t = ((cfg0.win 4).blk t).view.read (Elt Ideal)
      (readArr (V m c main_v0) (V m c main_arg1) (V m c main_v4)) := by
  show (cfg0.win 4).cut (grid0.coords t) ((dats m 0 c).after 4 t) = _
  rw [after0_4]
  unfold out0_4
  rw [View.canon_unit_zero hz]
  simp only [View.ld_unit_zero (S := S512x256) hz, View.ld_unit_zero (S := S2000x256) hz, View.ld_unit_zero (S := S1x2000) hz]
  obtain ⟨-, -, -, -, -, -, -, -, e0, e1⟩ := idx_facts t
  funext j
  have hN : cfg0.N = 32 := N_0
  have ht : t.val < 32 := by have := t.isLt; omega
  have hj0 : (j 0).val < 512 := (j 0).isLt
  refine (stored_readout_at (iblk m c 0 t) (iblk m c 1 t) (iblk m c 2 t) j).trans ?_
  obtain ⟨h0, h1, h2⟩ := rows_at m c t (j 0) ⟨t.val * 512 + (j 0).val, by omega⟩ rfl
  rw [h0, h1, h2]
  show readout _ _ _ (j 1) = readArr (V m c main_v0) (V m c main_arg1) (V m c main_v4) (((cfg0.win 4).blk t).view.emb j)
  unfold readArr rowReadout
  have hr : (((cfg0.win 4).blk t).view.emb j) 0 = (⟨t.val * 512 + (j 0).val, by omega⟩ : Fin 16384) :=
    Fin.ext (by show win0_4.index t (0 : Fin 2) * 512 + 1 * (j 0).val = t.val * 512 + (j 0).val; omega)
  have hc : (((cfg0.win 4).blk t).view.emb j) 1 = j 1 :=
    Fin.ext (by show win0_4.index t (1 : Fin 2) * 256 + 1 * (j 1).val = (j 1).val; omega)
  rw [hr, hc]

/-! ## The blocks cover the arrays -/

/-- An index of the weights array is in point `t`'s block iff each coordinate is in the block's range. -/
theorem mem_weights (t : Fin cfg0.N) (i : S16384x2000.Idx) :
    i ∈ ((cfg0.win 3).blk t).view.set ↔ ∀ a : Fin 2, win0_3.index t a * S512x2000.size a ≤ (i a).val ∧ (i a).val < win0_3.index t a * S512x2000.size a + S512x2000.size a := by
  show i ∈ ((View.whole main_v5_0).slice (win0_3.rect t)).set ↔ _
  rw [View.set_slice_whole, Rect.mem_set_unit]
  exact Iff.rfl

/-- The same for the read-back array. -/
theorem mem_readout (t : Fin cfg0.N) (i : S16384x256.Idx) :
    i ∈ ((cfg0.win 4).blk t).view.set ↔ ∀ a : Fin 2, win0_4.index t a * S512x256.size a ≤ (i a).val ∧ (i a).val < win0_4.index t a * S512x256.size a + S512x256.size a := by
  show i ∈ ((View.whole main_v5_1).slice (win0_4.rect t)).set ↔ _
  rw [View.set_slice_whole, Rect.mem_set_unit]
  exact Iff.rfl

/-- Row `r` of the weights is written by point `r / 512`. -/
theorem cover_weights (i : S16384x2000.Idx) :
    ∃ t : Fin cfg0.N, (cfg0.win 3).flush t = true ∧ i ∈ ((cfg0.win 3).blk t).view.set := by
  have hN : cfg0.N = 32 := N_0
  have hi0 : (i 0).val < 16384 := (i 0).isLt
  have hi1 : (i 1).val < 2000 := (i 1).isLt
  have hlt : (i 0).val / 512 < cfg0.N := by rw [hN]; omega
  obtain ⟨-, -, -, -, -, -, e0, e1, -⟩ := idx_facts ⟨(i 0).val / 512, hlt⟩
  refine ⟨⟨(i 0).val / 512, hlt⟩, flush0_3 _, ?_⟩
  rw [mem_weights]
  intro a
  match a with
  | ⟨0, _⟩ => show win0_3.index ⟨(i 0).val / 512, hlt⟩ (0 : Fin 2) * 512 ≤ (i 0).val ∧ (i 0).val < win0_3.index ⟨(i 0).val / 512, hlt⟩ (0 : Fin 2) * 512 + 512; rw [e0]; show (i 0).val / 512 * 512 ≤ (i 0).val ∧ (i 0).val < (i 0).val / 512 * 512 + 512; omega
  | ⟨1, _⟩ => show win0_3.index ⟨(i 0).val / 512, hlt⟩ (1 : Fin 2) * 2000 ≤ (i 1).val ∧ (i 1).val < win0_3.index ⟨(i 0).val / 512, hlt⟩ (1 : Fin 2) * 2000 + 2000; rw [e1]; omega

/-- Row `r` of the read-back is written by point `r / 512`. -/
theorem cover_readout (i : S16384x256.Idx) :
    ∃ t : Fin cfg0.N, (cfg0.win 4).flush t = true ∧ i ∈ ((cfg0.win 4).blk t).view.set := by
  have hN : cfg0.N = 32 := N_0
  have hi0 : (i 0).val < 16384 := (i 0).isLt
  have hi1 : (i 1).val < 256 := (i 1).isLt
  have hlt : (i 0).val / 512 < cfg0.N := by rw [hN]; omega
  obtain ⟨-, -, -, -, -, -, -, -, e0, e1⟩ := idx_facts ⟨(i 0).val / 512, hlt⟩
  refine ⟨⟨(i 0).val / 512, hlt⟩, flush0_4 _, ?_⟩
  rw [mem_readout]
  intro a
  match a with
  | ⟨0, _⟩ => show win0_4.index ⟨(i 0).val / 512, hlt⟩ (0 : Fin 2) * 512 ≤ (i 0).val ∧ (i 0).val < win0_4.index ⟨(i 0).val / 512, hlt⟩ (0 : Fin 2) * 512 + 512; rw [e0]; show (i 0).val / 512 * 512 ≤ (i 0).val ∧ (i 0).val < (i 0).val / 512 * 512 + 512; omega
  | ⟨1, _⟩ => show win0_4.index ⟨(i 0).val / 512, hlt⟩ (1 : Fin 2) * 256 ≤ (i 1).val ∧ (i 1).val < win0_4.index ⟨(i 0).val / 512, hlt⟩ (1 : Fin 2) * 256 + 256; rw [e1]; omega

/-! ## The arrays after the region -/

/-- THE WEIGHTS ARRAY after the region. -/
theorem final_weights (c : Dev nD) :
    (dats m 0 c).arrAt 3 cfg0.N = weightsArr (V m c main_v0) (V m c main_arg1) (V m c main_v4) :=
  (dats m 0 c).arrAt_eq_of_cover 3 (weightsArr (V m c main_v0) (V m c main_arg1) (V m c main_v4))
    (fun t _ => flushed_weights m c t) cover_weights

/-- THE READ-BACK ARRAY after the region. -/
theorem final_readout (c : Dev nD) :
    (dats m 0 c).arrAt 4 cfg0.N = readArr (V m c main_v0) (V m c main_arg1) (V m c main_v4) :=
  (dats m 0 c).arrAt_eq_of_cover 4 (readArr (V m c main_v0) (V m c main_arg1) (V m c main_v4))
    (fun t _ => flushed_readout m c t) cover_readout

end Cert.KernelIdeal.Arrays

end
-- ==== Proof.KernelResults.lean ====
/-
  The kernel program's results as functions of its two arguments.

  Before the region the host flattens the queries to 16384 rows (row `((a·2 + b)·32 + h)·32 + w` is the query at
  `(a, b, h, w)`) and computes the bank's row norms; after it, the host gives both result arrays their five-axis form back.
  So the weights at `(a, b, h, w, n)` are the addressing weights of the query row at `(a, b, h, w)`, and the read-back at
  `(a, b, h, w, c)` the bank read through them.
-/
import proofs.«132186_j2774548873902_1_alg».proof.Proof.KernelArrays

noncomputable section

open scoped BigOperators

open Idealize.ShloMosaic Idealize.ShloMosaic.TcCoe Idealize.SL.Sem Idealize.ShloMosaic.StableHlo
open Idealize.ShloMosaic.Pipeline (Dat)

namespace Cert.KernelIdeal.Results

open Cert.KernelIdeal Cert.KernelIdeal.Gen Cert.KernelIdeal.Rows Cert.KernelIdeal.Arrays Idealize.ShloMosaic.ValueIdx Cert.MemAddr

variable (m : (ℓ : Loc nD τ sig) → Buf (Elt Ideal) ℓ) (ρ : Dev nD → PrngReg)

/-! ## The arrays the region finds -/

/-- The flattened queries. -/
theorem queries_eq (c : Dev nD) :
    (V m c main_v0 : S16384x256.Idx → Elt Ideal .f32)
      = shapeCast S16384x256 (m ((c : Thread nD τ).loc main_arg0)) shapeCasts_S8x2x32x32x256_S16384x256 := by
  show StableHlo.after hostOps0 (fun b => m (c, b)) (Proc.devRef .tc main_v0) = _
  after_results
  rfl

/-- The bank's row norms, as one row. -/
theorem norms_eq (c : Dev nD) :
    (V m c main_v4 : S1x2000.Idx → Elt Ideal .f32)
      = shapeCast S1x2000 (Host.sqrt (F := Ideal) (Host.reduceAdd (F := Ideal)
          (mulf (m ((c : Thread nD τ).loc main_arg1)) (m ((c : Thread nD τ).loc main_arg1)))
          (constant (F := Ideal) S_ .f32 0x00000000#32) reducesTo_S2000x256_S2000_d1 h_S_)) shapeCasts_S2000_S1x2000 := by
  show StableHlo.after hostOps0 (fun b => m (c, b)) (Proc.devRef .tc main_v4) = _
  after_results
  rfl

/-- The row of the flattened queries that holds the query at `(a, b, h, w)`. -/
def flat (a : Fin 8) (b : Fin 2) (h w : Fin 32) : Fin 16384 :=
  ⟨((a.val * 2 + b.val) * 32 + h.val) * 32 + w.val, by have := a.isLt; have := b.isLt; have := h.isLt; have := w.isLt; omega⟩

/-- Row `flat a b h w` of the flattened queries is the query at `(a, b, h, w)`. -/
theorem queries_at (c : Dev nD) (a : Fin 8) (b : Fin 2) (h w : Fin 32) (cc : Fin 256) :
    (V m c main_v0 : S16384x256.Idx → Elt Ideal .f32) (ix2 (flat a b h w) cc)
      = (m ((c : Thread nD τ).loc main_arg0) : S8x2x32x32x256.Idx → Elt Ideal .f32) (ix5 a b h w cc) := by
  rw [queries_eq]
  exact shapeCast_apply (s := S8x2x32x32x256) (t := S16384x256) _ _ (ix2 (flat a b h w) cc) (ix5 a b h w cc) (by
    rw [Shape.rowMajor_val_two, Shape.rowMajor_val_five]
    rfl)

/-- The bank the region finds is the argument. -/
theorem bank_at (c : Dev nD) (k : Fin 2000) (cc : Fin 256) :
    (V m c main_arg1 : S2000x256.Idx → Elt Ideal .f32) (ix2 k cc)
      = (m ((c : Thread nD τ).loc main_arg1) : S2000x256.Idx → Elt Ideal .f32) (ix2 k cc) := by
  rw [V_main_arg1]

/-- The host's norm of a bank row: the square root of the sum of the row's squares. -/
theorem hostNorm_apply (A1 : FVec Ideal S2000x256 .f32) (k : Fin 2000) :
    Host.sqrt (F := Ideal) (Host.reduceAdd (F := Ideal) (mulf A1 A1) (constant (F := Ideal) S_ .f32 0x00000000#32)
        reducesTo_S2000x256_S2000_d1 h_S_) (ix1 k)
      = bankNorm (fun n cc => A1 (ix2 n cc)) k := by
  show Ideal.sqrt (Host.reduceAdd (F := Ideal) (mulf A1 A1) (constant (F := Ideal) S_ .f32 0x00000000#32)
        reducesTo_S2000x256_S2000_d1 h_S_ (ix1 k)) = _
  unfold bankNorm
  refine congrArg Ideal.sqrt ?_
  simp only [Host.reduceAdd, Ideal.hostReduceAdd_def]
  rw [Ideal.hostReduceAdd_single reducesTo_S2000x256_S2000_d1 (by decide)]
  show Ideal.ofBits .f32 0x00000000#32 + _ = _
  rw [Ideal.ofBits_zero_f32, zero_add]
  refine Finset.sum_congr rfl fun k' _ => ?_
  exact congrArg (mulf A1 A1) (funext fun a => Fin.ext (by match a with | ⟨0, _⟩ => rfl | ⟨1, _⟩ => rfl))

/-- The norms the region finds are the norms of the argument bank's rows. -/
theorem norms_at (c : Dev nD) (k : Fin 2000) :
    (V m c main_v4 : S1x2000.Idx → Elt Ideal .f32) (ix2 (0 : Fin 1) k)
      = bankNorm (fun n cc => (m ((c : Thread nD τ).loc main_arg1) : S2000x256.Idx → Elt Ideal .f32) (ix2 n cc)) k := by
  rw [norms_eq, shapeCast_a_1a_apply]
  exact hostNorm_apply (m ((c : Thread nD τ).loc main_arg1)) k

/-! ## The results -/

/-- The weights, five-axis: a function of the two arguments. -/
def weightsOf (Z : S8x2x32x32x256.Idx → Elt Ideal .f32) (M : S2000x256.Idx → Elt Ideal .f32) : S8x2x32x32x2000.Idx → Elt Ideal .f32 :=
  fun i => address (fun cc => Z (ix5 (i 0) (i 1) (i 2) (i 3) cc)) (fun k cc => M (ix2 k cc)) (bankNorm (fun k cc => M (ix2 k cc))) (i 4)

/-- The read-back, five-axis: a function of the two arguments. -/
def readoutOf (Z : S8x2x32x32x256.Idx → Elt Ideal .f32) (M : S2000x256.Idx → Elt Ideal .f32) : S8x2x32x32x256.Idx → Elt Ideal .f32 :=
  fun i => readout (fun cc => Z (ix5 (i 0) (i 1) (i 2) (i 3) cc)) (fun k cc => M (ix2 k cc)) (bankNorm (fun k cc => M (ix2 k cc))) (i 4)

/-- The three rows the region's arrays give a query at `(a, b, h, w)` are the rows of the arguments. -/
theorem rows_of (c : Dev nD) (a : Fin 8) (b : Fin 2) (h w : Fin 32) :
    (fun cc => (V m c main_v0 : S16384x256.Idx → Elt Ideal .f32) (ix2 (flat a b h w) cc))
        = (fun cc => (m ((c : Thread nD τ).loc main_arg0) : S8x2x32x32x256.Idx → Elt Ideal .f32) (ix5 a b h w cc))
    ∧ (fun k cc => (V m c main_arg1 : S2000x256.Idx → Elt Ideal .f32) (ix2 k cc))
        = (fun k cc => (m ((c : Thread nD τ).loc main_arg1) : S2000x256.Idx → Elt Ideal .f32) (ix2 k cc))
    ∧ (fun k => (V m c main_v4 : S1x2000.Idx → Elt Ideal .f32) (ix2 (0 : Fin 1) k))
        = bankNorm (fun n cc => (m ((c : Thread nD τ).loc main_arg1) : S2000x256.Idx → Elt Ideal .f32) (ix2 n cc)) :=
  ⟨funext fun cc => queries_at m c a b h w cc, funext fun k => funext fun cc => bank_at m c k cc, funext fun k => norms_at m c k⟩

/-- The weights array in its five-axis form is `weightsOf` of the arguments. -/
theorem weights_cast (c : Dev nD) :
    shapeCast S8x2x32x32x2000 (weightsArr (V m c main_v0) (V m c main_arg1) (V m c main_v4)) shapeCasts_S16384x2000_S8x2x32x32x2000
      = weightsOf (m ((c : Thread nD τ).loc main_arg0)) (m ((c : Thread nD τ).loc main_arg1)) := by
  funext i
  obtain ⟨a, b, h, w, n, rfl⟩ : ∃ (a : Fin 8) (b : Fin 2) (h w : Fin 32) (n : Fin 2000), i = ix5 a b h w n :=
    ⟨i 0, i 1, i 2, i 3, i 4, eq_ix5 i⟩
  rw [shapeCast_apply _ _ (ix5 a b h w n) (ix2 (flat a b h w) n) (by
    rw [Shape.rowMajor_val_two, Shape.rowMajor_val_five]
    rfl)]
  obtain ⟨h0, h1, h2⟩ := rows_of m c a b h w
  show address _ _ _ n = address _ _ _ n
  rw [h0, h1, h2]

/-- The read-back array in its five-axis form is `readoutOf` of the arguments. -/
theorem readout_cast (c : Dev nD) :
    shapeCast S8x2x32x32x256 (readArr (V m c main_v0) (V m c main_arg1) (V m c main_v4)) shapeCasts_S16384x256_S8x2x32x32x256
      = readoutOf (m ((c : Thread nD τ).loc main_arg0)) (m ((c : Thread nD τ).loc main_arg1)) := by
  funext i
  obtain ⟨a, b, h, w, q, rfl⟩ : ∃ (a : Fin 8) (b : Fin 2) (h w : Fin 32) (q : Fin 256), i = ix5 a b h w q :=
    ⟨i 0, i 1, i 2, i 3, i 4, eq_ix5 i⟩
  rw [shapeCast_apply _ _ (ix5 a b h w q) (ix2 (flat a b h w) q) (by
    rw [Shape.rowMajor_val_two, Shape.rowMajor_val_five]
    rfl)]
  obtain ⟨h0, h1, h2⟩ := rows_of m c a b h w
  show readout _ _ _ q = readout _ _ _ q
  rw [h0, h1, h2]

/-! ## The run -/

/-- The program's second result: the weights array, five-axis. -/
theorem tail_weights (c : Dev nD) :
    Pipeline.afterTail₀ cfgs (dats m) 0 (V0 m) [hostOps1] c main_v7
      = weightsOf (m ((c : Thread nD τ).loc main_arg0)) (m ((c : Thread nD τ).loc main_arg1)) := by
  unfold Pipeline.afterTail₀
  show StableHlo.after hostOps1 _ (Proc.devRef .tc main_v7) = _
  after_results
  have hw := (Pipeline.withArrays_arr spec0 launch0.win.arr_inj c (V0 m c) (fun w => (dats m 0 c).arrAt w cfg0.N) 3).trans (final_weights m c)
  exact (congrArg (fun X => shapeCast S8x2x32x32x2000 X shapeCasts_S16384x2000_S8x2x32x32x2000) hw).trans (weights_cast m c)

/-- The program's first result: the read-back array, five-axis. -/
theorem tail_readout (c : Dev nD) :
    Pipeline.afterTail₀ cfgs (dats m) 0 (V0 m) [hostOps1] c main_v6
      = readoutOf (m ((c : Thread nD τ).loc main_arg0)) (m ((c : Thread nD τ).loc main_arg1)) := by
  unfold Pipeline.afterTail₀
  show StableHlo.after hostOps1 _ (Proc.devRef .tc main_v6) = _
  after_results
  have hw := (Pipeline.withArrays_arr spec0 launch0.win.arr_inj c (V0 m c) (fun w => (dats m 0 c).arrAt w cfg0.N) 4).trans (final_readout m c)
  exact (congrArg (fun X => shapeCast S8x2x32x32x256 X shapeCasts_S16384x256_S8x2x32x32x256) hw).trans (readout_cast m c)

/-- THE RUN, READ: every weakly fair execution of the kernel's program ends with the read-back at `readoutOf` and the
    weights at `weightsOf` of the two arguments, and the arguments as they were. -/
theorem run : θ_run defs (onTc (τ := τ) (main (F := Ideal))) ⟨m, fun _ => 0, ρ⟩ fun r => ∀ c : Dev nD,
      r.2.mem ((c.tc : Thread nD τ).loc main_v6) = readoutOf (m ((c : Thread nD τ).loc main_arg0)) (m ((c : Thread nD τ).loc main_arg1))
      ∧ r.2.mem ((c.tc : Thread nD τ).loc main_v7) = weightsOf (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v6 (Pipeline.mem_restRefs_of main_v6 (by decide) (by decide))).trans (tail_readout m c),
      ((h c).2 main_v7 (Pipeline.mem_restRefs_of main_v7 (by decide) (by decide))).trans (tail_weights m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Results

end
-- ==== Proof.LibHostMax5.lean ====
/-
  A maximum over the LAST axis of a five-axis array, as the host computes it, read at one entry on the extended reals:
  at `(a, b, c, d)` it is the fold of `max` over `k` of the array at `(a, b, c, d, k)`, starting from the initial value.
  Every extent is arbitrary.  (The reduced index with the last coordinate put back is `(a, b, c, d, k)`: `lift_last5`.)
-/
import Idealize.ShloMosaic.PureOps.Ideal.Laws
import Idealize.ShloMosaic.PureOps.Reduce
import Idealize.ShloMosaic.Lib.ValueIdx

noncomputable section

namespace Cert.HostMax5

open Idealize.ShloMosaic Idealize.ShloMosaic.ValueIdx

/-- The reduced index `(a, b, c, d)` of a five-axis array with the coordinate `k` of the last axis put back. -/
theorem lift_last5 {n0 n1 n2 n3 n4 : ℕ} (h : (⟨5, ![n0, n1, n2, n3, n4]⟩ : Shape).Reduces [4] (⟨4, ![n0, n1, n2, n3]⟩ : Shape))
    (a : Fin n0) (b : Fin n1) (c : Fin n2) (d : Fin n3) (k : Fin ((⟨5, ![n0, n1, n2, n3, n4]⟩ : Shape).size 4)) :
    h.lift (ix4 a b c d) k = ix5 a b c d (⟨k.val, k.isLt⟩ : Fin n4) := by
  funext e; apply Fin.ext
  fin_cases e <;> rfl

/-- The host's reduce with a maximum body over the last axis of a five-axis array reads, at `(a, b, c, d)`, the fold of
    `max` over that row from the initial value. -/
theorem hostRowMax5_apply {n0 n1 n2 n3 n4 : ℕ} {u : Shape} (x : FVec Ideal ⟨5, ![n0, n1, n2, n3, n4]⟩ .f32) (init : u.Idx → Ideal .f32)
    (h' : (⟨5, ![n0, n1, n2, n3, n4]⟩ : Shape).ReducesTo [4] ⟨4, ![n0, n1, n2, n3]⟩)
    (h : (⟨5, ![n0, n1, n2, n3, n4]⟩ : Shape).Reduces [4] ⟨4, ![n0, n1, n2, n3]⟩)
    (hu : 0 < u.numel) (a : Fin n0) (b : Fin n1) (c : Fin n2) (d : Fin n3) :
    Host.reduce FloatOps.maximumf x init h' hu (ix4 a b c d)
      = (Finset.univ : Finset (Fin n4)).fold max (init (Shape.Idx.first hu)) (fun k => x (ix5 a b c d k)) :=
  (Host.reduce_eq_fold_single FloatOps.maximumf x init h' h hu (ix4 a b c d)).trans
    (congrArg (fun f => Finset.fold max (init (Shape.Idx.first hu)) f (Finset.univ : Finset (Fin n4)))
      (funext fun k => congrArg x (lift_last5 h a b c d k)))

end Cert.HostMax5

end
-- ==== Proof.RefRows.lean ====
/-
  The reference, read one entry at a time on the extended reals.

  The reference keeps the query array in its five-axis form: entry `(a, b, h, w, ·)` is one query row.  Stage by stage —
  the cosines, their maximum over the bank axis, the softmax, the hard shrinkage, the division by the absolute sum, the
  read-back — each of its values at `(a, b, h, w, n)` is the corresponding function of `Cert.MemAddr` of that row, with
  the bank's row norms computed from the bank itself.
-/
import proofs.«132186_j2774548873902_1_alg».proof.Proof.Gen.ReferenceIdeal.Read
import proofs.«132186_j2774548873902_1_alg».proof.Proof.Addressing
import proofs.«132186_j2774548873902_1_alg».proof.Proof.LibHostMax5
import Idealize.ShloMosaic.PureOps.Reduce

noncomputable section

open scoped BigOperators

namespace Cert.ReferenceIdeal.Rows

open Cert.ReferenceIdeal Cert.ReferenceIdeal.Gen Cert.ReferenceIdeal.Read Idealize.ShloMosaic Idealize.ShloMosaic.ValueIdx Cert.MemAddr Cert.HostMax5

/-! ## The reference's index maps at coordinates -/

section Coordinates

variable (a : Fin 8) (b : Fin 2) (h w : Fin 32)

theorem unit_v4 (n : Fin 2000) : idx_main_v4 (ix5 a b h w n) = ix5 a b h w (0 : Fin 1) := by
  funext e; apply Fin.ext; fin_cases e <;> rfl
theorem unit_v14 (n : Fin 2000) : idx_main_v14 (ix5 a b h w n) = ix5 a b h w (0 : Fin 1) := by
  funext e; apply Fin.ext; fin_cases e <;> rfl
theorem unit_v19 (n : Fin 2000) : idx_main_v19 (ix5 a b h w n) = ix5 a b h w (0 : Fin 1) := by
  funext e; apply Fin.ext; fin_cases e <;> rfl
theorem unit_v34 (n : Fin 2000) : idx_main_v34 (ix5 a b h w n) = ix5 a b h w (0 : Fin 1) := by
  funext e; apply Fin.ext; fin_cases e <;> rfl

theorem drop_call0_v2 (u : Fin 1) : idx_main_call0_v2 (ix5 a b h w u) = ix4 a b h w := by
  funext e; apply Fin.ext; fin_cases e <;> rfl
theorem drop_v13 (u : Fin 1) : idx_main_v13 (ix5 a b h w u) = ix4 a b h w := by
  funext e; apply Fin.ext; fin_cases e <;> rfl
theorem drop_v18 (u : Fin 1) : idx_main_v18 (ix5 a b h w u) = ix4 a b h w := by
  funext e; apply Fin.ext; fin_cases e <;> rfl
theorem drop_v31 (u : Fin 1) : idx_main_v31 (ix5 a b h w u) = ix4 a b h w := by
  funext e; apply Fin.ext; fin_cases e <;> rfl

theorem put_call0_v1 (k : Fin 256) : idx_main_call0_v1 (ix4 a b h w) k = ix5 a b h w k := by
  funext e; apply Fin.ext; fin_cases e <;> rfl
theorem put_v17 (k : Fin 2000) : idx_main_v17 (ix4 a b h w) k = ix5 a b h w k := by
  funext e; apply Fin.ext; fin_cases e <;> rfl
theorem put_v30 (k : Fin 2000) : idx_main_v30 (ix4 a b h w) k = ix5 a b h w k := by
  funext e; apply Fin.ext; fin_cases e <;> rfl

theorem bank_v5 (n : Fin 2000) : idx_main_v5 (ix5 a b h w n) = ix5 (0 : Fin 1) (0 : Fin 1) (0 : Fin 1) (0 : Fin 1) n := by
  funext e; apply Fin.ext; fin_cases e <;> rfl
theorem bank_v3 (u1 u2 u3 u4 : Fin 1) (n : Fin 2000) : idx_main_v3 (ix5 u1 u2 u3 u4 n) = ix1 n := by
  funext e; apply Fin.ext; fin_cases e <;> rfl
theorem bank_call1_v1 (n : Fin 2000) (k : Fin 256) : idx_main_call1_v1 (ix1 n) k = ix2 n k := by
  funext e; apply Fin.ext; fin_cases e <;> rfl

theorem lhs_v2 (n : Fin 2000) (k : Fin 256) : lidx_main_v2 (ix5 a b h w n) k = ix5 a b h w k := by
  funext e; apply Fin.ext; fin_cases e <;> rfl
theorem rhs_v2 (n : Fin 2000) (k : Fin 256) : ridx_main_v2 (ix5 a b h w n) k = ix2 n k := by
  funext e; apply Fin.ext; fin_cases e <;> rfl
theorem lhs_v36 (c : Fin 256) (k : Fin 2000) : lidx_main_v36 (ix5 a b h w c) k = ix5 a b h w k := by
  funext e; apply Fin.ext; fin_cases e <;> rfl
theorem rhs_v36 (c : Fin 256) (k : Fin 2000) : ridx_main_v36 (ix5 a b h w c) k = ix2 k c := by
  funext e; apply Fin.ext; fin_cases e <;> rfl

end Coordinates

/-! ## The stages -/

/-- The bank as rows of features. -/
abbrev bankOf (x1 : (⟨S2000x256, .f32⟩ : BufTy).Contents (Elt Ideal)) : Bank := fun k c => x1 (ix2 k c)
/-- The query row at `(a, b, h, w)`. -/
abbrev rowOf (x0 : (⟨S8x2x32x32x256, .f32⟩ : BufTy).Contents (Elt Ideal)) (a : Fin 8) (b : Fin 2) (h w : Fin 32) : Row :=
  fun c => x0 (ix5 a b h w c)

/-- The reference's norm of bank row `n`. -/
theorem ref_bankNorm (x1 : (⟨S2000x256, .f32⟩ : BufTy).Contents (Elt Ideal)) (n : Fin 2000) :
    val_main_v1 (F := Ideal) x1 (ix1 n) = bankNorm (bankOf x1) n := by
  unfold bankNorm
  simp only [val_main_v1_apply, val_main_call1_v1_apply, val_main_call1_cst_apply, val_main_call1_v0_apply, bank_call1_v1, Ideal.hostDivf_def, Ideal.hostUnary_sqrt_def, Ideal.hostUnary_exp_def, Ideal.hostAbsf_def, Ideal.mulf_def, Ideal.addf_def, Ideal.subf_def, Ideal.maximumf_def, Ideal.ofBits_def, Ideal.ofBits_zero_f32, zero_add]

variable (a : Fin 8) (b : Fin 2) (h w : Fin 32)

/-- The reference's cosines. -/
theorem ref_cosine (x0 : (⟨S8x2x32x32x256, .f32⟩ : BufTy).Contents (Elt Ideal)) (x1 : (⟨S2000x256, .f32⟩ : BufTy).Contents (Elt Ideal)) (n : Fin 2000) :
    val_main_v9 (F := Ideal) x0 x1 (ix5 a b h w n) = cosine (rowOf x0 a b h w) (bankOf x1) (bankNorm (bankOf x1)) n := by
  unfold cosine
  simp only [val_main_v9_apply, val_main_v2_apply, val_main_v8_apply, val_main_v6_apply, val_main_v7_apply, val_main_cst_apply,
    val_main_v4_apply, val_main_v0_apply, val_main_call0_v2_apply, val_main_call0_v1_apply, val_main_call0_cst_apply,
    val_main_call0_v0_apply, val_main_v5_apply, val_main_v3_apply, unit_v4, drop_call0_v2, put_call0_v1, bank_v5, bank_v3,
    lhs_v2, rhs_v2, ref_bankNorm, Ideal.hostDivf_def, Ideal.hostUnary_sqrt_def, Ideal.hostUnary_exp_def, Ideal.hostAbsf_def, Ideal.mulf_def, Ideal.addf_def, Ideal.subf_def, Ideal.maximumf_def, Ideal.ofBits_def, Ideal.ofBits_zero_f32, zero_add]

/-- The reference's maximum of the cosines of a row. -/
theorem ref_peak (x0 : (⟨S8x2x32x32x256, .f32⟩ : BufTy).Contents (Elt Ideal)) (x1 : (⟨S2000x256, .f32⟩ : BufTy).Contents (Elt Ideal)) :
    val_main_v12 (F := Ideal) x0 x1 (ix4 a b h w) = peak (cosine (rowOf x0 a b h w) (bankOf x1) (bankNorm (bankOf x1))) := by
  have hmax := hostRowMax5_apply (val_main_v9 (F := Ideal) x0 x1) (val_main_cst_0 (F := Ideal))
    reducesTo_S8x2x32x32x2000_S8x2x32x32_d4 (by decide) h_S_ a b h w
  rw [val_main_v12_apply, val_main_v11_apply, val_main_cst_1_apply, peak_def]
  unfold val_main_v10
  rw [hmax, val_main_cst_0_apply]
  simp only [ref_cosine]
  rfl

/-- The reference's softmax. -/
theorem ref_softmax (x0 : (⟨S8x2x32x32x256, .f32⟩ : BufTy).Contents (Elt Ideal)) (x1 : (⟨S2000x256, .f32⟩ : BufTy).Contents (Elt Ideal)) (n : Fin 2000) :
    val_main_v20 (F := Ideal) x0 x1 (ix5 a b h w n) = softmax (cosine (rowOf x0 a b h w) (bankOf x1) (bankNorm (bankOf x1))) n := by
  unfold softmax
  simp only [val_main_v20_apply, val_main_v16_apply, val_main_v15_apply, val_main_v14_apply, val_main_v13_apply, val_main_v19_apply,
    val_main_v18_apply, val_main_v17_apply, val_main_cst_2_apply, unit_v14, drop_v13, unit_v19, drop_v18, put_v17,
    ref_cosine, ref_peak, Ideal.hostDivf_def, Ideal.hostUnary_sqrt_def, Ideal.hostUnary_exp_def, Ideal.hostAbsf_def, Ideal.mulf_def, Ideal.addf_def, Ideal.subf_def, Ideal.maximumf_def, Ideal.ofBits_def, Ideal.ofBits_zero_f32, zero_add]

/-- The reference's shrunk weights. -/
theorem ref_shrink (x0 : (⟨S8x2x32x32x256, .f32⟩ : BufTy).Contents (Elt Ideal)) (x1 : (⟨S2000x256, .f32⟩ : BufTy).Contents (Elt Ideal)) (n : Fin 2000) :
    val_main_v28 (F := Ideal) x0 x1 (ix5 a b h w n) = shrink (softmax (cosine (rowOf x0 a b h w) (bankOf x1) (bankNorm (bankOf x1))) n) := by
  unfold shrink
  simp only [val_main_v28_apply, val_main_v27_apply, val_main_v23_apply, val_main_v22_apply, val_main_v21_apply, val_main_cst_3_apply,
    val_main_call2_v0_apply, val_main_call2_cst_apply, val_main_v26_apply, val_main_v24_apply, val_main_v25_apply, val_main_cst_4_apply,
    ref_softmax, Ideal.hostDivf_def, Ideal.hostUnary_sqrt_def, Ideal.hostUnary_exp_def, Ideal.hostAbsf_def, Ideal.mulf_def, Ideal.addf_def, Ideal.subf_def, Ideal.maximumf_def, Ideal.ofBits_def, Ideal.ofBits_zero_f32, zero_add]
  rfl

/-- THE REFERENCE'S WEIGHTS at `(a, b, h, w, n)`: the addressing weights of the query row at `(a, b, h, w)`. -/
theorem ref_address (x0 : (⟨S8x2x32x32x256, .f32⟩ : BufTy).Contents (Elt Ideal)) (x1 : (⟨S2000x256, .f32⟩ : BufTy).Contents (Elt Ideal)) (n : Fin 2000) :
    val_main_v35 (F := Ideal) x0 x1 (ix5 a b h w n) = address (rowOf x0 a b h w) (bankOf x1) (bankNorm (bankOf x1)) n := by
  unfold address renorm
  simp only [val_main_v35_apply, val_main_v34_apply, val_main_v33_apply, val_main_v32_apply, val_main_cst_6_apply, val_main_v31_apply,
    val_main_v30_apply, val_main_v29_apply, val_main_cst_5_apply, unit_v34, drop_v31, put_v30, ref_shrink, Ideal.hostDivf_def, Ideal.hostUnary_sqrt_def, Ideal.hostUnary_exp_def, Ideal.hostAbsf_def, Ideal.mulf_def, Ideal.addf_def, Ideal.subf_def, Ideal.maximumf_def, Ideal.ofBits_def, Ideal.ofBits_zero_f32, zero_add]
  rfl

/-- THE REFERENCE'S READ-BACK at `(a, b, h, w, c)`. -/
theorem ref_readout (x0 : (⟨S8x2x32x32x256, .f32⟩ : BufTy).Contents (Elt Ideal)) (x1 : (⟨S2000x256, .f32⟩ : BufTy).Contents (Elt Ideal)) (c : Fin 256) :
    val_main_v36 (F := Ideal) x0 x1 (ix5 a b h w c) = readout (rowOf x0 a b h w) (bankOf x1) (bankNorm (bankOf x1)) c := by
  unfold readout
  simp only [val_main_v36_apply, lhs_v36, rhs_v36, ref_address]

end Cert.ReferenceIdeal.Rows

end
-- ==== Proof.lean ====
/-
  Sparse memory addressing: a tiled kernel against its five-axis reference, on the extended reals.

  Both programs take queries `z` (8 × 2 × 32 × 32 rows of 256 features) and a memory bank (2000 rows of 256 features).
  For every query row they compute its cosine with every bank row (the product of the two norms padded by `ε`), a
  softmax over the bank axis, a hard shrinkage `max (w − δ) 0 / (|w − δ| + ε) · w` of every weight, a division by the
  row's absolute sum plus `ε`, and the bank read back through the resulting weights.  The kernel flattens the queries to
  16384 rows, computes the bank's row norms once on the host, works on tiles of 512 rows, and gives the results their
  five-axis form back; the reference does everything in five axes.  Since every step acts on one query row at a time and
  the two programs apply the same operations in the same order to that row, both results are the SAME function of the
  arguments, entry by entry (`Cert.MemAddr.address`, `Cert.MemAddr.readout`), whatever the inputs: no finiteness is used.
  A matrix product accumulated into zero and the host's contraction are one sum, a lane sum and the host's sum from zero
  are one sum, a lane maximum and the host's maximum from `−∞` are one fold, and a change of float format is the identity.
-/
import proofs.«132186_j2774548873902_1_alg».proof.Defs
import proofs.«132186_j2774548873902_1_alg».proof.Proof.Gen.Kernel
import proofs.«132186_j2774548873902_1_alg».proof.Proof.Gen.Kernel.Skeleton
import proofs.«132186_j2774548873902_1_alg».proof.Proof.Gen.Kernel.Launch
import proofs.«132186_j2774548873902_1_alg».proof.Proof.Gen.Kernel.Points
import proofs.«132186_j2774548873902_1_alg».proof.Proof.Gen.Kernel.Frame
import proofs.«132186_j2774548873902_1_alg».proof.Proof.Gen.KernelIdeal
import proofs.«132186_j2774548873902_1_alg».proof.Proof.Gen.KernelIdeal.Skeleton
import proofs.«132186_j2774548873902_1_alg».proof.Proof.Gen.KernelIdeal.Launch
import proofs.«132186_j2774548873902_1_alg».proof.Proof.Gen.KernelIdeal.Points
import proofs.«132186_j2774548873902_1_alg».proof.Proof.Gen.KernelIdeal.Frame
import proofs.«132186_j2774548873902_1_alg».proof.Proof.Gen.ReferenceIdeal
import proofs.«132186_j2774548873902_1_alg».proof.Proof.Gen.ReferenceIdeal.Run
import proofs.«132186_j2774548873902_1_alg».proof.Proof.Gen.ReferenceIdeal.Read
import proofs.«132186_j2774548873902_1_alg».proof.Proof.Gen.Pre_finite_inputs
import proofs.«132186_j2774548873902_1_alg».proof.Proof.KernelResults
import proofs.«132186_j2774548873902_1_alg».proof.Proof.RefRows
import Idealize.ShloMosaic.Adequacy
import Idealize.ShloMosaic.Init

noncomputable section

namespace Cert.Proof

open Idealize.ShloMosaic Idealize.ShloMosaic.TcCoe Idealize.SL.Sem Idealize.ShloMosaic.ValueIdx

/-! ## The reference's two results are the kernel's two functions -/

/-- The reference's read-back is `readoutOf` of the arguments: entry `(a, b, h, w, q)` is the bank read through the
    addressing weights of the query row at `(a, b, h, w)`. -/
theorem ref_readoutOf (Z : Cert.KernelIdeal.S8x2x32x32x256.Idx → Elt Ideal .f32) (M : Cert.KernelIdeal.S2000x256.Idx → Elt Ideal .f32) :
    Cert.ReferenceIdeal.Read.val_main_v36 (F := Ideal) Z M = Cert.KernelIdeal.Results.readoutOf Z M := by
  funext i
  obtain ⟨a, b, h, w, q, rfl⟩ : ∃ (a : Fin 8) (b : Fin 2) (h w : Fin 32) (q : Fin 256), i = ix5 a b h w q :=
    ⟨i 0, i 1, i 2, i 3, i 4, eq_ix5 i⟩
  exact Cert.ReferenceIdeal.Rows.ref_readout a b h w Z M q

/-- The reference's weights are `weightsOf` of the arguments. -/
theorem ref_weightsOf (Z : Cert.KernelIdeal.S8x2x32x32x256.Idx → Elt Ideal .f32) (M : Cert.KernelIdeal.S2000x256.Idx → Elt Ideal .f32) :
    Cert.ReferenceIdeal.Read.val_main_v35 (F := Ideal) Z M = Cert.KernelIdeal.Results.weightsOf Z M := by
  funext i
  obtain ⟨a, b, h, w, n, rfl⟩ : ∃ (a : Fin 8) (b : Fin 2) (h w : Fin 32) (n : Fin 2000), i = ix5 a b h w n :=
    ⟨i 0, i 1, i 2, i 3, i 4, eq_ix5 i⟩
  exact Cert.ReferenceIdeal.Rows.ref_address a b h w Z M n

/-! ## The claims -/

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote nothing: the idealized kernel is the kernel's own text. -/
theorem preserves : Cert.preserves_Kernel_KernelIdeal := trivial

/-- Both programs end with the read-back at `readoutOf` and the weights at `weightsOf` of arguments that agree. -/
theorem algebraic : Cert.algebraic_KernelIdeal_ReferenceIdeal := by
  intro m ρ m' ρ' _ hagree
  refine ⟨fun c => Cert.KernelIdeal.Results.readoutOf (m ((c : Thread Cert.KernelIdeal.nD Cert.KernelIdeal.τ).loc Cert.KernelIdeal.main_arg0)) (m ((c : Thread Cert.KernelIdeal.nD Cert.KernelIdeal.τ).loc Cert.KernelIdeal.main_arg1)),
    fun c => Cert.KernelIdeal.Results.weightsOf (m ((c : Thread Cert.KernelIdeal.nD Cert.KernelIdeal.τ).loc Cert.KernelIdeal.main_arg0)) (m ((c : Thread Cert.KernelIdeal.nD Cert.KernelIdeal.τ).loc Cert.KernelIdeal.main_arg1)),
    Cert.KernelIdeal.Results.run m ρ, ?_⟩
  refine (θ_run Cert.ReferenceIdeal.defs _ _).mono (fun _ h c => ⟨(h c).1.trans ?_, (h c).2.1.trans ?_, (h c).2.2.1, (h c).2.2.2⟩)
    (Cert.ReferenceIdeal.Value.run (F := Ideal) m' ρ')
  · rw [Cert.ReferenceIdeal.Read.val_main_v36_eq, (hagree c).1, (hagree c).2]
    exact ref_readoutOf _ _
  · rw [Cert.ReferenceIdeal.Read.val_main_v35_eq, (hagree c).1, (hagree c).2]
    exact ref_weightsOf _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
